-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8x1024x2816 : S_.BroadcastsInDim S8x1024x2816 (![] : Fin 0 → Fin S8x1024x2816.rank)
  reducesTo_S8x1024x2816_S_d0_1_2 : S8x1024x2816.ReducesTo [0, 1, 2] S_
  bcast_S_S8x2816x1024 : S_.BroadcastsInDim S8x2816x1024 (![] : Fin 0 → Fin S8x2816x1024.rank)
  reducesTo_S8x2816x1024_S_d0_1_2 : S8x2816x1024.ReducesTo [0, 1, 2] S_

variable [Facts]

def fn_part1 {F : FTy → Type} [FloatOps F] (main_arg5 : FVec F S8x2816x1024 .f32) (main_v13 : IVec S_ 1) (main_v16 : IVec S8x1024x2816 1) : IVec S_ 1 :=
  let main_c_5 : IVec S_ 1 := constantI S_ 1 1#1
  let main_v17 : IVec S_ 1 := (fun x v => Host.reduce IntOp.andi x v reducesTo_S8x1024x2816_S_d0_1_2 h_S_) main_v16 main_c_5
  let main_v18 : IVec S_ 1 := andi main_v13 main_v17
  let main_v19 : FVec F S8x2816x1024 .f32 := Host.absf main_arg5
  let main_cst_6 : FVec F S_ .f32 := constant S_ .f32 0x7F800000#32
  let main_v20 : FVec F S8x2816x1024 .f32 := broadcastInDim S8x2816x1024 ![] bcast_S_S8x2816x1024 main_cst_6
  let main_v21 : IVec S8x2816x1024 1 := cmpf .olt main_v19 main_v20
  let main_c_7 : IVec S_ 1 := constantI S_ 1 1#1
  let main_v22 : IVec S_ 1 := (fun x v => Host.reduce IntOp.andi x v reducesTo_S8x2816x1024_S_d0_1_2 h_S_) main_v21 main_c_7
  let main_v23 : IVec S_ 1 := andi main_v18 main_v22
  main_v23

def fn {F : FTy → Type} [FloatOps F] (main_arg0 : FVec F S8192x1024 .f32) (main_arg1 : IVec S8192 32) (main_arg2 : FVec F S8192 .f32) (main_arg3 : FVec F S8x1024x2816 .f32) (main_arg4 : FVec F S8x1024x2816 .f32) (main_arg5 : FVec F S8x2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8x1024x2816 .f32 := Host.absf main_arg3
  let main_cst_2 : FVec F S_ .f32 := constant S_ .f32 0x7F800000#32
  let main_v10 : FVec F S8x1024x2816 .f32 := broadcastInDim S8x1024x2816 ![] bcast_S_S8x1024x2816 main_cst_2
  let main_v11 : IVec S8x1024x2816 1 := cmpf .olt main_v9 main_v10
  let main_c_3 : IVec S_ 1 := constantI S_ 1 1#1
  let main_v12 : IVec S_ 1 := (fun x v => Host.reduce IntOp.andi x v reducesTo_S8x1024x2816_S_d0_1_2 h_S_) main_v11 main_c_3
  let main_v13 : IVec S_ 1 := andi main_v8 main_v12
  let main_v14 : FVec F S8x1024x2816 .f32 := Host.absf main_arg4
  let main_cst_4 : FVec F S_ .f32 := constant S_ .f32 0x7F800000#32
  let main_v15 : FVec F S8x1024x2816 .f32 := broadcastInDim S8x1024x2816 ![] bcast_S_S8x1024x2816 main_cst_4
  let main_v16 : IVec S8x1024x2816 1 := cmpf .olt main_v14 main_v15
  fn_part1 (F := F) main_arg5 main_v13 main_v16
-- ==== Kernel.lean ====
abbrev S8192x1024 : Shape := ⟨2, ![8192, 1024]⟩
abbrev S8192 : Shape := ⟨1, ![8192]⟩
abbrev S8x1024x2816 : Shape := ⟨3, ![8, 1024, 2816]⟩
abbrev S8x2816x1024 : Shape := ⟨3, ![8, 2816, 1024]⟩
abbrev S8192x1 : Shape := ⟨2, ![8192, 1]⟩
abbrev S1x8 : Shape := ⟨2, ![1, 8]⟩
abbrev S8192x8 : Shape := ⟨2, ![8192, 8]⟩
abbrev S_ : Shape := ⟨0, ![]⟩
abbrev S10241x1024 : Shape := ⟨2, ![10241, 1024]⟩
abbrev S10240x1024 : Shape := ⟨2, ![10240, 1024]⟩
abbrev S8x1280x1024 : Shape := ⟨3, ![8, 1280, 1024]⟩
abbrev S1x128x1024 : Shape := ⟨3, ![1, 128, 1024]⟩
abbrev S1x1024x2816 : Shape := ⟨3, ![1, 1024, 2816]⟩
abbrev S1x2816x1024 : Shape := ⟨3, ![1, 2816, 1024]⟩
abbrev S128x1024 : Shape := ⟨2, ![128, 1024]⟩
abbrev S1024x2816 : Shape := ⟨2, ![1024, 2816]⟩
abbrev S2816x1024 : Shape := ⟨2, ![2816, 1024]⟩
abbrev S128x2816 : Shape := ⟨2, ![128, 2816]⟩
abbrev S1x1024 : Shape := ⟨2, ![1, 1024]⟩

abbrev nBuf : Space → Nat
  | .hbm => 69
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .f32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S8192x1, .i32⟩
  | .hbm, ⟨7, _⟩ => ⟨S1x8, .i32⟩
  | .hbm, ⟨8, _⟩ => ⟨S8192x8, .i32⟩
  | .hbm, ⟨9, _⟩ => ⟨S8192x8, .i32⟩
  | .hbm, ⟨10, _⟩ => ⟨S8192x8, .i1⟩
  | .hbm, ⟨11, _⟩ => ⟨S8192x8, .i32⟩
  | .hbm, ⟨12, _⟩ => ⟨S_, .i32⟩
  | .hbm, ⟨13, _⟩ => ⟨S_, .i32⟩
  | .hbm, ⟨14, _⟩ => ⟨S8192x8, .i32⟩
  | .hbm, ⟨15, _⟩ => ⟨S_, .i32⟩
  | .hbm, ⟨16, _⟩ => ⟨S8192x8, .i32⟩
  | .hbm, ⟨17, _⟩ => ⟨S8192x8, .i32⟩
  | .hbm, ⟨18, _⟩ => ⟨S8192x8, .i32⟩
  | .hbm, ⟨19, _⟩ => ⟨S_, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192x1024, .bf16⟩
  | .hbm, ⟨33, _⟩ => ⟨S_, .bf16⟩
  | .hbm, ⟨34, _⟩ => ⟨S10241x1024, .bf16⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S10241x1024, .bf16⟩
  | .hbm, ⟨44, _⟩ => ⟨S10240x1024, .bf16⟩
  | .hbm, ⟨45, _⟩ => ⟨S8x1280x1024, .bf16⟩
  | .hbm, ⟨46, _⟩ => ⟨S8x1024x2816, .bf16⟩
  | .hbm, ⟨47, _⟩ => ⟨S8x1024x2816, .bf16⟩
  | .hbm, ⟨48, _⟩ => ⟨S8x2816x1024, .bf16⟩
  | .hbm, ⟨49, _⟩ => ⟨S8x1280x1024, .f32⟩
  | .hbm, ⟨50, _⟩ => ⟨S10240x1024, .f32⟩
  | .hbm, ⟨51, _⟩ => ⟨S_, .f32⟩
  | .hbm, ⟨52, _⟩ => ⟨S1x1024, .f32⟩
  | .hbm, ⟨53, _⟩ => ⟨S10241x1024, .f32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S8192x1, .i32⟩
  | .hbm, ⟨62, _⟩ => ⟨S8192x1024, .f32⟩
  | .hbm, ⟨63, _⟩ => ⟨S8192x1, .i1⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .i1⟩
  | .hbm, ⟨68, _⟩ => ⟨S8192x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S1x128x1024, .f32⟩
  | .local _ .vmem, ⟨9, _⟩ => ⟨S1x128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_call0_c : Ref sig .tc := ⟨.hbm, 12, rfl⟩
abbrev main_call1_call0_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_c_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call3_v0 : Ref sig .tc := ⟨.hbm, 67, rfl⟩
abbrev main_v41 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  natLt_1_32 : 1 < 32
  bcast_S_S_ : S_.BroadcastsInDim S_ (![] : Fin 0 → Fin S_.rank)
  reduceWindows_S8192x8_S8192x8_w8192s1p8191_0_w1s1p0_0 : S8192x8.ReduceWindows (![8192, 1] : Fin 2 → Nat) ![1, 1] ![8191, 0] ![0, 0] S8192x8
  h_S_ : 0 < S_.numel
  bcast_S_S8192x8 : S_.BroadcastsInDim S8192x8 (![] : Fin 0 → Fin S8192x8.rank)
  reducesTo_S8192x8_S8192_d1 : S8192x8.ReducesTo [1] S8192
  bcast_S_S8192 : S_.BroadcastsInDim S8192 (![] : Fin 0 → Fin S8192.rank)
  bitsLt_bf16_f32 : FTy.bits .bf16 < FTy.bits .f32
  bcast_S_S10241x1024 : S_.BroadcastsInDim S10241x1024 (![] : Fin 0 → Fin S10241x1024.rank)
  slices_S10241x1024_S10240x1024_0_0 : S10241x1024.Slices ![0, 0] S10240x1024
  shapeCasts_S10240x1024_S8x1280x1024 : S10240x1024.ShapeCasts S8x1280x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x1024x2816_S1x1024x2816_0_0_0 : ∀ a, (![0, 0, 0] : Fin 3 → Nat) a + S1x1024x2816.size a ≤ S1x1024x2816.size a
  h_S1x1024x2816 : 0 < S1x1024x2816.numel
  shapeCasts_S1x1024x2816_S1024x2816 : S1x1024x2816.ShapeCasts S1024x2816
  inb_S1x2816x1024_S1x2816x1024_0_0_0 : ∀ a, (![0, 0, 0] : Fin 3 → Nat) a + S1x2816x1024.size a ≤ S1x2816x1024.size a
  h_S1x2816x1024 : 0 < S1x2816x1024.numel
  shapeCasts_S1x2816x1024_S2816x1024 : S1x2816x1024.ShapeCasts S2816x1024
  shapeCasts_S128x1024_S1x128x1024 : S128x1024.ShapeCasts S1x128x1024
  shapeCasts_S8x1280x1024_S10240x1024 : S8x1280x1024.ShapeCasts S10240x1024
  bcast_S_S1x1024 : S_.BroadcastsInDim S1x1024 (![] : Fin 0 → Fin S1x1024.rank)
  concatenates_S10240x1024_S1x1024_S10241x1024_d0 : Shape.Concatenates [S10240x1024, S1x1024] S10241x1024 0
  bcast_S8192x1_S8192x1024_0_1 : S8192x1.BroadcastsInDim S8192x1024 (![0, 1] : Fin 2 → Fin S8192x1024.rank)
  scatter_S10241x1024_S8192x1_S8192x1024_1_0_0_1_wf : ScatterDims.WF S10241x1024 S8192x1 S8192x1024 [1] [0] [0] 1
  dot_S128x1024_S1024x2816_S128x2816_1_0_0_1_n_n_wf : DotDims.WF S128x1024 S1024x2816 S128x2816 [1] [0] [0] [1] [] []
  dot_S128x2816_S2816x1024_S128x1024_1_0_0_1_n_n_wf : DotDims.WF S128x2816 S2816x1024 S128x1024 [1] [0] [0] [1] [] []
  gather_S10241x1024_S8192x1_S8192x1024_1_0_n_n_0_1_11024_wf : GatherDims.WF S10241x1024 S8192x1 S8192x1024 [1] [0] [] [0] [] 1 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S8x1280x1024.size a
  hwx0_0 : ∀ i : grid0.Coords, EltTy.bits .bf16 = 32 ∨ (Rect.block (s := S8x1280x1024) S1x128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2816.size a ≤ S8x1024x2816.size a
  hwx0_1 : ∀ i : grid0.Coords, EltTy.bits .bf16 = 32 ∨ (Rect.block (s := S8x1024x2816) S1x1024x2816.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2816.size a ≤ S8x1024x2816.size a
  hwx0_2 : ∀ i : grid0.Coords, EltTy.bits .bf16 = 32 ∨ (Rect.block (s := S8x1024x2816) S1x1024x2816.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2816x1024.size a ≤ S8x2816x1024.size a
  hwx0_3 : ∀ i : grid0.Coords, EltTy.bits .bf16 = 32 ∨ (Rect.block (s := S8x2816x1024) S1x2816x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1024.size a ≤ S8x1280x1024.size a
  hwx0_4 : ∀ i : grid0.Coords, EltTy.bits .f32 = 32 ∨ (Rect.block (s := S8x1280x1024) S1x128x1024.size (cc0_transform_4 i) (hinb0_4 i)).WholeWords (EltTy.packing .f32)

variable [Facts₀]

def scatter_S10241x1024_S8192x1_S8192x1024_1_0_0_1 : ScatterDims S10241x1024 S8192x1 S8192x1024 where
  updateWindowDims := [1]
  insertedWindowDims := [0]
  scatterDimsToOperandDims := [0]
  indexVectorDim := 1
  wf := scatter_S10241x1024_S8192x1_S8192x1024_1_0_0_1_wf
def dot_S128x1024_S1024x2816_S128x2816_1_0_0_1_n_n : DotDims S128x1024 S1024x2816 S128x2816 where
  lhsContracting := [1]
  rhsContracting := [0]
  lhsNonContracting := [0]
  rhsNonContracting := [1]
  lhsBatch := []
  rhsBatch := []
  wf := dot_S128x1024_S1024x2816_S128x2816_1_0_0_1_n_n_wf
def dot_S128x2816_S2816x1024_S128x1024_1_0_0_1_n_n : DotDims S128x2816 S2816x1024 S128x1024 where
  lhsContracting := [1]
  rhsContracting := [0]
  lhsNonContracting := [0]
  rhsNonContracting := [1]
  lhsBatch := []
  rhsBatch := []
  wf := dot_S128x2816_S2816x1024_S128x1024_1_0_0_1_n_n_wf
def gather_S10241x1024_S8192x1_S8192x1024_1_0_n_n_0_1_11024 : GatherDims S10241x1024 S8192x1 S8192x1024 where
  offsetDims := [1]
  collapsedSliceDims := [0]
  operandBatchingDims := []
  startIndicesBatchingDims := []
  startIndexMap := [0]
  indexVectorDim := 1
  sliceSizes := ![1, 1024]
  wf := gather_S10241x1024_S8192x1_S8192x1024_1_0_n_n_0_1_11024_wf

abbrev win0_0 : Pipeline.Window sig grid0 :=
  Pipeline.Window.ofSpec (Memref.whole main_v22) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x1024x2816.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1024x2816.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x2816x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S8x1024x2816 : Shape := ⟨3, ![8, 1024, 2816]⟩
abbrev S8x2816x1024 : Shape := ⟨3, ![8, 2816, 1024]⟩
abbrev S8192x1 : Shape := ⟨2, ![8192, 1]⟩
abbrev S1x8 : Shape := ⟨2, ![1, 8]⟩
abbrev S8192x8 : Shape := ⟨2, ![8192, 8]⟩
abbrev S_ : Shape := ⟨0, ![]⟩
abbrev S10241x1024 : Shape := ⟨2, ![10241, 1024]⟩
abbrev S10240x1024 : Shape := ⟨2, ![10240, 1024]⟩
abbrev S8x1280x1024 : Shape := ⟨3, ![8, 1280, 1024]⟩
abbrev S8x1280x2816 : Shape := ⟨3, ![8, 1280, 2816]⟩
abbrev S1x1024 : Shape := ⟨2, ![1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .f32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S8192x1, .i32⟩
  | .hbm, ⟨7, _⟩ => ⟨S1x8, .i32⟩
  | .hbm, ⟨8, _⟩ => ⟨S8192x8, .i32⟩
  | .hbm, ⟨9, _⟩ => ⟨S8192x8, .i32⟩
  | .hbm, ⟨10, _⟩ => ⟨S8192x8, .i1⟩
  | .hbm, ⟨11, _⟩ => ⟨S8192x8, .i32⟩
  | .hbm, ⟨12, _⟩ => ⟨S_, .i32⟩
  | .hbm, ⟨13, _⟩ => ⟨S_, .i32⟩
  | .hbm, ⟨14, _⟩ => ⟨S8192x8, .i32⟩
  | .hbm, ⟨15, _⟩ => ⟨S_, .i32⟩
  | .hbm, ⟨16, _⟩ => ⟨S8192x8, .i32⟩
  | .hbm, ⟨17, _⟩ => ⟨S8192x8, .i32⟩
  | .hbm, ⟨18, _⟩ => ⟨S8192x8, .i32⟩
  | .hbm, ⟨19, _⟩ => ⟨S_, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .f32⟩
  | .hbm, ⟨33, _⟩ => ⟨S10241x1024, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S10241x1024, .f32⟩
  | .hbm, ⟨43, _⟩ => ⟨S10240x1024, .f32⟩
  | .hbm, ⟨44, _⟩ => ⟨S8x1280x1024, .f32⟩
  | .hbm, ⟨45, _⟩ => ⟨S8x1280x2816, .f32⟩
  | .hbm, ⟨46, _⟩ => ⟨S8x1280x2816, .f32⟩
  | .hbm, ⟨47, _⟩ => ⟨S8x1280x2816, .f32⟩
  | .hbm, ⟨48, _⟩ => ⟨S8x1280x2816, .f32⟩
  | .hbm, ⟨49, _⟩ => ⟨S_, .f32⟩
  | .hbm, ⟨50, _⟩ => ⟨S8x1280x2816, .f32⟩
  | .hbm, ⟨51, _⟩ => ⟨S8x1280x2816, .f32⟩
  | .hbm, ⟨52, _⟩ => ⟨S_, .f32⟩
  | .hbm, ⟨53, _⟩ => ⟨S8x1280x2816, .f32⟩
  | .hbm, ⟨54, _⟩ => ⟨S8x1280x2816, .f32⟩
  | .hbm, ⟨55, _⟩ => ⟨S8x1280x2816, .f32⟩
  | .hbm, ⟨56, _⟩ => ⟨S8x1280x2816, .f32⟩
  | .hbm, ⟨57, _⟩ => ⟨S8x1280x1024, .f32⟩
  | .hbm, ⟨58, _⟩ => ⟨S10240x1024, .f32⟩
  | .hbm, ⟨59, _⟩ => ⟨S_, .f32⟩
  | .hbm, ⟨60, _⟩ => ⟨S1x1024, .f32⟩
  | .hbm, ⟨61, _⟩ => ⟨S10241x1024, .f32⟩
  | .hbm, ⟨62, _⟩ => ⟨S_, .i32⟩
  | .hbm, ⟨63, _⟩ => ⟨S8192, .i32⟩
  | .hbm, ⟨64, _⟩ => ⟨S8192, .i1⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S8192, .i32⟩
  | .hbm, ⟨69, _⟩ => ⟨S8192x1, .i32⟩
  | .hbm, ⟨70, _⟩ => ⟨S8192x1024, .f32⟩
  | .hbm, ⟨71, _⟩ => ⟨S8192x1, .i1⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1024, .i1⟩
  | .hbm, ⟨76, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_call0_c : Ref sig .tc := ⟨.hbm, 12, rfl⟩
abbrev main_call1_call0_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_v14 : Ref sig .tc := ⟨.hbm, 36, rfl⟩
abbrev main_c_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call3_v0 : Ref sig .tc := ⟨.hbm, 47, rfl⟩
abbrev main_call3_v1 : Ref sig .tc := ⟨.hbm, 48, rfl⟩
abbrev main_call3_cst : Ref sig .tc := ⟨.hbm, 49, rfl⟩
abbrev main_call3_v2 : Ref sig .tc := ⟨.hbm, 50, rfl⟩
abbrev main_call3_v3 : Ref sig .tc := ⟨.hbm, 51, rfl⟩
abbrev main_call3_cst_0 : Ref sig .tc := ⟨.hbm, 52, rfl⟩
abbrev main_call3_v4 : Ref sig .tc := ⟨.hbm, 53, rfl⟩
abbrev main_call3_v5 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_6 : Ref sig .tc := ⟨.hbm, 59, rfl⟩
abbrev main_v28 : Ref sig .tc := ⟨.hbm, 60, rfl⟩
abbrev main_v29 : Ref sig .tc := ⟨.hbm, 61, rfl⟩
abbrev main_c_7 : Ref sig .tc := ⟨.hbm, 62, rfl⟩
abbrev main_v30 : Ref sig .tc := ⟨.hbm, 63, rfl⟩
abbrev main_v31 : Ref sig .tc := ⟨.hbm, 64, rfl⟩
abbrev main_c_8 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call4_v0 : Ref sig .tc := ⟨.hbm, 75, rfl⟩
abbrev main_v41 : Ref sig .tc := ⟨.hbm, 76, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  natLt_1_32 : 1 < 32
  bcast_S_S_ : S_.BroadcastsInDim S_ (![] : Fin 0 → Fin S_.rank)
  reduceWindows_S8192x8_S8192x8_w8192s1p8191_0_w1s1p0_0 : S8192x8.ReduceWindows (![8192, 1] : Fin 2 → Nat) ![1, 1] ![8191, 0] ![0, 0] S8192x8
  h_S_ : 0 < S_.numel
  bcast_S_S8192x8 : S_.BroadcastsInDim S8192x8 (![] : Fin 0 → Fin S8192x8.rank)
  reducesTo_S8192x8_S8192_d1 : S8192x8.ReducesTo [1] S8192
  bcast_S_S8192 : S_.BroadcastsInDim S8192 (![] : Fin 0 → Fin S8192.rank)
  bcast_S_S10241x1024 : S_.BroadcastsInDim S10241x1024 (![] : Fin 0 → Fin S10241x1024.rank)
  slices_S10241x1024_S10240x1024_0_0 : S10241x1024.Slices ![0, 0] S10240x1024
  shapeCasts_S10240x1024_S8x1280x1024 : S10240x1024.ShapeCasts S8x1280x1024
  bcast_S_S8x1280x2816 : S_.BroadcastsInDim S8x1280x2816 (![] : Fin 0 → Fin S8x1280x2816.rank)
  shapeCasts_S8x1280x1024_S10240x1024 : S8x1280x1024.ShapeCasts S10240x1024
  bcast_S_S1x1024 : S_.BroadcastsInDim S1x1024 (![] : Fin 0 → Fin S1x1024.rank)
  concatenates_S10240x1024_S1x1024_S10241x1024_d0 : Shape.Concatenates [S10240x1024, S1x1024] S10241x1024 0
  bcast_S8192x1_S8192x1024_0_1 : S8192x1.BroadcastsInDim S8192x1024 (![0, 1] : Fin 2 → Fin S8192x1024.rank)
  scatter_S10241x1024_S8192x1_S8192x1024_1_0_0_1_wf : ScatterDims.WF S10241x1024 S8192x1 S8192x1024 [1] [0] [0] 1
  dot_S8x1280x1024_S8x1024x2816_S8x1280x2816_2_1_1_2_0_0_wf : DotDims.WF S8x1280x1024 S8x1024x2816 S8x1280x2816 [2] [1] [1] [2] [0] [0]
  dot_S8x1280x2816_S8x2816x1024_S8x1280x1024_2_1_1_2_0_0_wf : DotDims.WF S8x1280x2816 S8x2816x1024 S8x1280x1024 [2] [1] [1] [2] [0] [0]
  gather_S10241x1024_S8192x1_S8192x1024_1_0_n_n_0_1_11024_wf : GatherDims.WF S10241x1024 S8192x1 S8192x1024 [1] [0] [] [0] [] 1 ![1, 1024]

variable [Facts₀]

def scatter_S10241x1024_S8192x1_S8192x1024_1_0_0_1 : ScatterDims S10241x1024 S8192x1 S8192x1024 where
  updateWindowDims := [1]
  insertedWindowDims := [0]
  scatterDimsToOperandDims := [0]
  indexVectorDim := 1
  wf := scatter_S10241x1024_S8192x1_S8192x1024_1_0_0_1_wf
def dot_S8x1280x1024_S8x1024x2816_S8x1280x2816_2_1_1_2_0_0 : DotDims S8x1280x1024 S8x1024x2816 S8x1280x2816 where
  lhsContracting := [2]
  rhsContracting := [1]
  lhsNonContracting := [1]
  rhsNonContracting := [2]
  lhsBatch := [0]
  rhsBatch := [0]
  wf := dot_S8x1280x1024_S8x1024x2816_S8x1280x2816_2_1_1_2_0_0_wf
def dot_S8x1280x2816_S8x2816x1024_S8x1280x1024_2_1_1_2_0_0 : DotDims S8x1280x2816 S8x2816x1024 S8x1280x1024 where
  lhsContracting := [2]
  rhsContracting := [1]
  lhsNonContracting := [1]
  rhsNonContracting := [2]
  lhsBatch := [0]
  rhsBatch := [0]
  wf := dot_S8x1280x2816_S8x2816x1024_S8x1280x1024_2_1_1_2_0_0_wf
def gather_S10241x1024_S8192x1_S8192x1024_1_0_n_n_0_1_11024 : GatherDims S10241x1024 S8192x1 S8192x1024 where
  offsetDims := [1]
  collapsedSliceDims := [0]
  operandBatchingDims := []
  startIndicesBatchingDims := []
  startIndexMap := [0]
  indexVectorDim := 1
  sliceSizes := ![1, 1024]
  wf := gather_S10241x1024_S8192x1_S8192x1024_1_0_n_n_0_1_11024_wf

class Facts : Prop extends Facts₀ where

variable [Facts]
-- ==== Proof.Routing.lean ====
/-
  Top-1 routing with a capacity: the host-side functions both programs share.

  There are 8192 tokens, 8 experts and 1280 slots per expert. A token's POSITION is the number of earlier tokens with
  the same expert: the one-hot encoding of the expert index, its running count along the token axis minus one, masked by
  the one-hot and summed over the experts. The token is KEPT when its position is below the capacity; its SLOT is
  `expert · 1280 + position` when kept and the overflow slot 10240 otherwise. DISPATCH writes the tokens' rows into a
  buffer of 10241 rows at their slots (rows that share the overflow slot overwrite one another there), cuts the overflow
  row off and groups the 10240 rows by expert. COMBINE flattens the experts' output rows again, appends a zero overflow
  row, gathers each token's row back, and gives a kept token its row scaled by its score and a dropped token itself.

  All of it is stated once, over any element type where the operation allows it, so that each program's host lines are
  read against these functions and the two are never compared with each other.
-/
import Idealize.ShloMosaic.PureOps

noncomputable section

namespace Cert.Moe

open Idealize.ShloMosaic

/-! ## Shapes -/

/-- One word per token. -/
abbrev TK : Shape := ⟨1, ![8192]⟩
/-- The same as a column. -/
abbrev TC : Shape := ⟨2, ![8192, 1]⟩
/-- The experts as a row. -/
abbrev ER : Shape := ⟨2, ![1, 8]⟩
/-- Token by expert. -/
abbrev TE : Shape := ⟨2, ![8192, 8]⟩
/-- A scalar. -/
abbrev S0 : Shape := ⟨0, ![]⟩
/-- Token by feature. -/
abbrev TF : Shape := ⟨2, ![8192, 1024]⟩
/-- All slots and the overflow slot, by feature. -/
abbrev BO : Shape := ⟨2, ![10241, 1024]⟩
/-- All slots by feature. -/
abbrev BS : Shape := ⟨2, ![10240, 1024]⟩
/-- Expert by slot by feature. -/
abbrev BX : Shape := ⟨3, ![8, 1280, 1024]⟩
/-- One row of features. -/
abbrev R1 : Shape := ⟨2, ![1, 1024]⟩

/-! ## The shape relations the operations ask for -/

theorem bc_TK_TC : TK.BroadcastsInDim TC (![0] : Fin 1 → Fin TC.rank) := by decide
theorem bc_TC_TE : TC.BroadcastsInDim TE (![0, 1] : Fin 2 → Fin TE.rank) := by decide
theorem bc_ER_TE : ER.BroadcastsInDim TE (![0, 1] : Fin 2 → Fin TE.rank) := by decide
theorem lt_1_32 : 1 < 32 := by decide
theorem bc_S0_S0 : S0.BroadcastsInDim S0 (![] : Fin 0 → Fin S0.rank) := by decide
theorem rw_TE : TE.ReduceWindows (![8192, 1] : Fin 2 → Nat) ![1, 1] ![8191, 0] ![0, 0] TE := by decide
theorem pos_S0 : 0 < S0.numel := by decide
theorem bc_S0_TE : S0.BroadcastsInDim TE (![] : Fin 0 → Fin TE.rank) := by decide
theorem red_TE_TK : TE.ReducesTo [1] TK := by decide
theorem bc_S0_TK : S0.BroadcastsInDim TK (![] : Fin 0 → Fin TK.rank) := by decide
theorem sl_BO_BS : BO.Slices ![0, 0] BS := by decide
theorem sc_BS_BX : BS.ShapeCasts BX := by decide
theorem sc_BX_BS : BX.ShapeCasts BS := by decide
theorem bc_S0_R1 : S0.BroadcastsInDim R1 (![] : Fin 0 → Fin R1.rank) := by decide
theorem cat_BS_R1 : Shape.Concatenates [BS, R1] BO 0 := by decide
theorem bc_TC_TF : TC.BroadcastsInDim TF (![0, 1] : Fin 2 → Fin TF.rank) := by decide
theorem scatter_wf : ScatterDims.WF BO TC TF [1] [0] [0] 1 := by decide
theorem gather_wf : GatherDims.WF BO TC TF [1] [0] [] [0] [] 1 ![1, 1024] := by decide

/-- Rows of `TF` written at the rows of `BO` an index column names. -/
def rowScatter : ScatterDims BO TC TF where
  updateWindowDims := [1]
  insertedWindowDims := [0]
  scatterDimsToOperandDims := [0]
  indexVectorDim := 1
  wf := scatter_wf

/-- Rows of `BO` read at the rows an index column names. -/
def rowGather : GatherDims BO TC TF where
  offsetDims := [1]
  collapsedSliceDims := [0]
  operandBatchingDims := []
  startIndicesBatchingDims := []
  startIndexMap := [0]
  indexVectorDim := 1
  sliceSizes := ![1, 1024]
  wf := gather_wf

/-! ## Routing -/

/-- The one-hot encoding of the expert index: 1 at `(t, e)` when token `t` goes to expert `e`. -/
def oneHot (idx : IVec TK 32) : IVec TE 32 :=
  extui 32 (cmpi .eq (broadcastInDim TE ![0, 1] bc_TC_TE (broadcastInDim TC ![0] bc_TK_TC idx))
    (broadcastInDim TE ![0, 1] bc_ER_TE (iotaInDim ER 32 1))) lt_1_32

/-- A token's position in its expert's queue: the count of tokens up to it with its expert, minus one. -/
def queuePos (idx : IVec TK 32) : IVec TK 32 :=
  Host.reduce IntOp.addi
    (muli
      (subi
        (Host.reduceWindow IntOp.addi ![8192, 1] ![1, 1] ![8191, 0] ![0, 0] (oneHot idx)
          (broadcastInDim S0 ![] bc_S0_S0 (constantI S0 32 0#32)) rw_TE pos_S0)
        (broadcastInDim TE ![] bc_S0_TE (constantI S0 32 1#32)))
      (oneHot idx))
    (constantI S0 32 0#32) red_TE_TK pos_S0

/-- Whether the token's position is below the capacity. -/
def kept (idx : IVec TK 32) : IVec TK 1 :=
  cmpi .slt (queuePos idx) (broadcastInDim TK ![] bc_S0_TK (constantI S0 32 1280#32))

/-- The token's slot: `expert · 1280 + position` when kept, the overflow slot otherwise. -/
def slot (idx : IVec TK 32) : IVec TK 32 :=
  select (kept idx) (addi (muli idx (broadcastInDim TK ![] bc_S0_TK (constantI S0 32 1280#32))) (queuePos idx))
    (broadcastInDim TK ![] bc_S0_TK (id (constantI S0 32 10240#32)))

/-- The slots as an index column, a negative word wrapped around the 10241 rows first. -/
def slotCol (s : IVec TK 32) : IVec TC 32 :=
  broadcastInDim TC ![0] bc_TK_TC
    (select (cmpi .slt s (broadcastInDim TK ![] bc_S0_TK (constantI S0 32 0#32)))
      (addi s (broadcastInDim TK ![] bc_S0_TK (constantI S0 32 10241#32))) s)

/-! ## Dispatch and combine -/

/-- The token rows `x` written into the buffer `z` at their slots, the overflow row cut off, the rows grouped by
    expert. -/
def dispatched {α : Type} (z : BO.Idx → α) (x : TF.Idx → α) (s : IVec TK 32) : BX.Idx → α :=
  shapeCast BX (extractStridedSlice BS ![0, 0] (Host.scatter rowScatter (fun _ b => b) z (slotCol s) x) sl_BO_BS) sc_BS_BX

variable {F : FTy → Type} [FloatOps F]

/-- Each token's output: its expert's row times its score when it was kept, the token itself when it was dropped. -/
def combined (out : FVec F BX .f32) (x : FVec F TF .f32) (s : IVec TK 32) (k : IVec TK 1) (sc : FVec F TK .f32) :
    FVec F TF .f32 :=
  select (broadcastInDim TF ![0, 1] bc_TC_TF (broadcastInDim TC ![0] bc_TK_TC k))
    (mulf
      (Host.gather rowGather
        (concatenate BO 0 [⟨BS, shapeCast BS out sc_BX_BS⟩, ⟨R1, broadcastInDim R1 ![] bc_S0_R1 (constant S0 .f32 0x00000000#32)⟩]
          cat_BS_R1)
        (slotCol s))
      (broadcastInDim TF ![0, 1] bc_TC_TF (broadcastInDim TC ![0] bc_TK_TC sc)))
    x

end Cert.Moe

end
-- ==== Proof.KernRead.lean ====
/-
  The kernel program's host lines, read against the shared host functions.

  BEFORE the kernel is launched the program routes the tokens exactly as the reference does, narrows the tokens and the
  three weight arrays to bf16, and dispatches the narrowed tokens into a bf16 zero buffer: the four arrays the launch
  stages hold `dispatched` of the narrowed tokens and the slots, and the narrowed weights. AFTER the launch it combines:
  the result holds `combined` of the launch's output array, the tokens, the slots, the kept bits and the scores. A stretch
  of host lines leaves every buffer it does not write as it found it.
-/
import proofs.«141049_j63694364999794_2_alg».proof.Proof.Gen.KernelIdeal.Frame
import proofs.«141049_j63694364999794_2_alg».proof.Proof.Routing
import Idealize.ShloMosaic.Lib.StableHlo.Run

noncomputable section

namespace Cert.KernelIdeal.Read

open Cert.KernelIdeal Cert.KernelIdeal.Gen Idealize.ShloMosaic Idealize.ShloMosaic.TcCoe Idealize.ShloMosaic.StableHlo
open Cert.Moe

variable {F : FTy → Type} [FloatOps F]

/-- The routing lines: the one-hot, the running count, the position, the kept bit, the slot. -/
abbrev routeK : List (HloOp τ sig (Elt F)) := hostOps0 ++ (hostOps0_1 ++ (hostOps0_2 ++ hostOps0_3))

/-- The lines after the launch. -/
abbrev tailK : List (HloOp τ sig (Elt F)) := hostOps1 ++ hostOps1_1

/-! ## Routing -/

attribute [local irreducible] Host.reduce Host.reduceWindow in
theorem route_slot (V : Valuation τ sig (Elt F)) : after routeK V (Proc.devRef .tc main_v11) = slot (V (Proc.devRef .tc main_arg1)) := by
  simp only [routeK, hostOps0, hostOps0_1, hostOps0_2, hostOps0_3, List.cons_append, List.nil_append]
  after_results_simp
  rfl

attribute [local irreducible] Host.reduce Host.reduceWindow in
theorem route_kept (V : Valuation τ sig (Elt F)) : after routeK V (Proc.devRef .tc main_v7) = kept (V (Proc.devRef .tc main_arg1)) := by
  simp only [routeK, hostOps0, hostOps0_1, hostOps0_2, hostOps0_3, List.cons_append, List.nil_append]
  after_results
  rfl

theorem route_arg0 (V : Valuation τ sig (Elt F)) : after routeK V (Proc.devRef .tc main_arg0) = V (Proc.devRef .tc main_arg0) := by
  simp only [routeK, hostOps0, hostOps0_1, hostOps0_2, hostOps0_3, List.cons_append, List.nil_append]
  after_results
theorem route_arg3 (V : Valuation τ sig (Elt F)) : after routeK V (Proc.devRef .tc main_arg3) = V (Proc.devRef .tc main_arg3) := by
  simp only [routeK, hostOps0, hostOps0_1, hostOps0_2, hostOps0_3, List.cons_append, List.nil_append]
  after_results
theorem route_arg4 (V : Valuation τ sig (Elt F)) : after routeK V (Proc.devRef .tc main_arg4) = V (Proc.devRef .tc main_arg4) := by
  simp only [routeK, hostOps0, hostOps0_1, hostOps0_2, hostOps0_3, List.cons_append, List.nil_append]
  after_results
theorem route_arg5 (V : Valuation τ sig (Elt F)) : after routeK V (Proc.devRef .tc main_arg5) = V (Proc.devRef .tc main_arg5) := by
  simp only [routeK, hostOps0, hostOps0_1, hostOps0_2, hostOps0_3, List.cons_append, List.nil_append]
  after_results

/-! ## Narrowing and dispatch -/

attribute [local irreducible] Host.scatter in
theorem dispatch_xe (V : Valuation τ sig (Elt F)) :
    after hostOps0_4 V (Proc.devRef .tc main_v22)
      = dispatched (broadcastInDim S10241x1024 ![] Gen.bcast_S_S10241x1024 (constant (F := F) S_ .bf16 0x0000#16))
          (truncf .bf16 (V (Proc.devRef .tc main_arg0)) Gen.bitsLt_bf16_f32) (V (Proc.devRef .tc main_v11)) := by
  after_results
  rfl

theorem dispatch_wg (V : Valuation τ sig (Elt F)) :
    after hostOps0_4 V (Proc.devRef .tc main_v23) = truncf .bf16 (V (Proc.devRef .tc main_arg3)) Gen.bitsLt_bf16_f32 := by
  after_results
theorem dispatch_wu (V : Valuation τ sig (Elt F)) :
    after hostOps0_4 V (Proc.devRef .tc main_v24) = truncf .bf16 (V (Proc.devRef .tc main_arg4)) Gen.bitsLt_bf16_f32 := by
  after_results
theorem dispatch_wd (V : Valuation τ sig (Elt F)) :
    after hostOps0_4 V (Proc.devRef .tc main_v25) = truncf .bf16 (V (Proc.devRef .tc main_arg5)) Gen.bitsLt_bf16_f32 := by
  after_results
theorem dispatch_v11 (V : Valuation τ sig (Elt F)) : after hostOps0_4 V (Proc.devRef .tc main_v11) = V (Proc.devRef .tc main_v11) := by
  after_results
theorem dispatch_v7 (V : Valuation τ sig (Elt F)) : after hostOps0_4 V (Proc.devRef .tc main_v7) = V (Proc.devRef .tc main_v7) := by
  after_results

/-! ## What the launch finds -/

variable (m : (ℓ : Loc nD τ sig) → Buf (Elt F) ℓ)

/-- The contents at the launch, stretch by stretch: after the narrowing and dispatch lines of what the routing lines left. -/
theorem V0_split (c : Dev nD) : V0 m c = after hostOps0_4 (after routeK (fun b => m (c, b))) := by
  show after (List.flatten [hostOps0, hostOps0_1, hostOps0_2, hostOps0_3, hostOps0_4]) _
    = after hostOps0_4 (after (hostOps0 ++ (hostOps0_1 ++ (hostOps0_2 ++ hostOps0_3))) _)
  simp only [List.flatten_cons, List.flatten_nil, List.append_nil, StableHlo.after_append]

/-- The token buffer the launch stages. -/
theorem entry_xe (c : Dev nD) :
    V m c main_v22
      = dispatched (broadcastInDim S10241x1024 ![] Gen.bcast_S_S10241x1024 (constant (F := F) S_ .bf16 0x0000#16))
          (truncf .bf16 (m ((c : Thread nD τ).loc main_arg0)) Gen.bitsLt_bf16_f32) (slot (m ((c : Thread nD τ).loc main_arg1))) := by
  show V0 m c (Proc.devRef .tc main_v22) = _
  rw [V0_split, dispatch_xe, route_slot, route_arg0]
/-- The weight arrays the launch stages: the arguments narrowed. -/
theorem entry_wg (c : Dev nD) : V m c main_v23 = truncf .bf16 (m ((c : Thread nD τ).loc main_arg3)) Gen.bitsLt_bf16_f32 := by
  show V0 m c (Proc.devRef .tc main_v23) = _
  rw [V0_split, dispatch_wg, route_arg3]
theorem entry_wu (c : Dev nD) : V m c main_v24 = truncf .bf16 (m ((c : Thread nD τ).loc main_arg4)) Gen.bitsLt_bf16_f32 := by
  show V0 m c (Proc.devRef .tc main_v24) = _
  rw [V0_split, dispatch_wu, route_arg4]
theorem entry_wd (c : Dev nD) : V m c main_v25 = truncf .bf16 (m ((c : Thread nD τ).loc main_arg5)) Gen.bitsLt_bf16_f32 := by
  show V0 m c (Proc.devRef .tc main_v25) = _
  rw [V0_split, dispatch_wd, route_arg5]
/-- The slots and the kept bits at the launch. -/
theorem entry_slot (c : Dev nD) : V0 m c (Proc.devRef .tc main_v11) = slot (m ((c : Thread nD τ).loc main_arg1)) := by
  rw [V0_split, dispatch_v11, route_slot]
theorem entry_kept (c : Dev nD) : V0 m c (Proc.devRef .tc main_v7) = kept (m ((c : Thread nD τ).loc main_arg1)) := by
  rw [V0_split, dispatch_v7, route_kept]

/-! ## Combine -/

attribute [local irreducible] Host.gather concatenate in
theorem tail_out (V : Valuation τ sig (Elt F)) :
    after (List.flatten [hostOps1, hostOps1_1]) V (Proc.devRef .tc main_v41)
      = combined (V (Proc.devRef .tc main_v26)) (V (Proc.devRef .tc main_arg0)) (V (Proc.devRef .tc main_v11)) (V (Proc.devRef .tc main_v7))
          (V (Proc.devRef .tc main_arg2)) := by
  simp only [List.flatten_cons, List.flatten_nil, List.append_nil, hostOps1, hostOps1_1, List.cons_append, List.nil_append]
  after_results_simp
  rfl

end Cert.KernelIdeal.Read

end
-- ==== Proof.LibDense.lean ====
/-
  A plain matrix product read at an index.

  For `l : [A, K]` and `r : [K, B]` the product with dimension numbers "contract axis 1 of the left with axis 0 of the
  right, no batch axes" — what `jnp.dot` of two matrices lowers to, on the matrix unit (into a zero accumulator) and on
  the host alike — is, at the ideal instance and at the element `(a, b)`, the exact sum over `k` of
  `l (a, k) · r (k, b)`. General in `A`, `K`, `B` and in the operands' float formats.
-/
import Idealize.ShloMosaic.PureOps.Ideal
import Idealize.ShloMosaic.PureOps.Ideal.Laws
import Idealize.ShloMosaic.Lib.ValueIdx

noncomputable section

open scoped BigOperators

namespace Cert.Lib.Dense

open Idealize.ShloMosaic Idealize.ShloMosaic.ValueIdx

/-- The dimension numbers of `l @ r` for `l : [A, K]`, `r : [K, B]`. -/
abbrev denseDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

section
variable {A K B : Nat} (wf : DotDims.WF ⟨2, ![A, K]⟩ ⟨2, ![K, B]⟩ ⟨2, ![A, B]⟩ [1] [0] [0] [1] [] [])

/-- The left operand's row is the result's row … -/
theorem dense_lhs0 (i : (⟨2, ![A, B]⟩ : Shape).Idx) (q : (denseDims A K B wf).contr.Idx) :
    ((denseDims A K B wf).lhsIdx i q 0).val = (i 0).val := by
  unfold DotDims.lhsIdx
  rw [dif_neg (show ¬(0 : Fin 2) ∈ (denseDims A K B wf).lhsBatch from List.not_mem_nil),
    dif_pos (show (0 : Fin 2) ∈ (denseDims A K B wf).lhsNonContracting from List.mem_singleton.mpr rfl)]
  rfl

/-- … and its column the contraction coordinate. -/
theorem dense_lhs1 (i : (⟨2, ![A, B]⟩ : Shape).Idx) (q : (denseDims A K B wf).contr.Idx) :
    ((denseDims A K B wf).lhsIdx i q 1).val = (q ⟨0, (Nat.one_pos : 0 < 1)⟩).val :=
  (denseDims A K B wf).lhsIdx_val_of_single rfl i q

/-- The right operand's row is the contraction coordinate … -/
theorem dense_rhs0 (i : (⟨2, ![A, B]⟩ : Shape).Idx) (q : (denseDims A K B wf).contr.Idx) :
    ((denseDims A K B wf).rhsIdx i q 0).val = (q ⟨0, (Nat.one_pos : 0 < 1)⟩).val :=
  (denseDims A K B wf).rhsIdx_val_of_single rfl i q

/-- … and its column the result's column. -/
theorem dense_rhs1 (i : (⟨2, ![A, B]⟩ : Shape).Idx) (q : (denseDims A K B wf).contr.Idx) :
    ((denseDims A K B wf).rhsIdx i q 1).val = (i 1).val := by
  unfold DotDims.rhsIdx
  rw [dif_neg (show ¬(1 : Fin 2) ∈ (denseDims A K B wf).rhsBatch from List.not_mem_nil),
    dif_pos (show (1 : Fin 2) ∈ (denseDims A K B wf).rhsNonContracting from List.mem_singleton.mpr rfl)]
  rfl

/-- The contraction's sum, re-indexed by its one coordinate. -/
theorem dense_sum {φ₁ φ₂ : FTy} (l : FVec Ideal ⟨2, ![A, K]⟩ φ₁) (r : FVec Ideal ⟨2, ![K, B]⟩ φ₂) (a : Fin A) (b : Fin B) :
    (∑ q : (denseDims A K B wf).contr.Idx,
        l ((denseDims A K B wf).lhsIdx (ix2 a b) q) * r ((denseDims A K B wf).rhsIdx (ix2 a b) q))
      = ∑ k : Fin K, l (ix2 a k) * r (ix2 k b) := by
  rw [← Equiv.sum_comp (contrEquiv1 (denseDims A K B wf) K rfl rfl).symm]
  refine Finset.sum_congr rfl fun k _ => ?_
  have hk := contrEquiv1_symm_val (denseDims A K B wf) K rfl rfl k
  have el : (denseDims A K B wf).lhsIdx (ix2 a b) ((contrEquiv1 (denseDims A K B wf) K rfl rfl).symm k) = ix2 a k :=
    funext fun x => Fin.ext (by
      match x with
      | ⟨0, _⟩ => exact dense_lhs0 wf _ _
      | ⟨1, _⟩ => exact (dense_lhs1 wf _ _).trans hk)
  have er : (denseDims A K B wf).rhsIdx (ix2 a b) ((contrEquiv1 (denseDims A K B wf) K rfl rfl).symm k) = ix2 k b :=
    funext fun x => Fin.ext (by
      match x with
      | ⟨0, _⟩ => exact (dense_rhs0 wf _ _).trans hk
      | ⟨1, _⟩ => exact dense_rhs1 wf _ _)
  rw [el, er]

/-- THE MATRIX UNIT'S PRODUCT into a zero accumulator, read at `(a, b)`. -/
theorem dense_matmul_apply {φ₁ φ₂ : FTy} (prec : Option ContractPrecision)
    (l : FVec Ideal ⟨2, ![A, K]⟩ φ₁) (r : FVec Ideal ⟨2, ![K, B]⟩ φ₂) (a : Fin A) (b : Fin B) :
    FloatOps.matmul (denseDims A K B wf) prec l r (constant (F := Ideal) ⟨2, ![A, B]⟩ .f32 0x00000000#32) (ix2 a b)
      = ∑ k : Fin K, l (ix2 a k) * r (ix2 k b) := by
  rw [Ideal.matmul_constant_zero_apply]
  exact dense_sum wf l r a b

/-- THE HOST'S PRODUCT, read at `(a, b)`. -/
theorem dense_dotGeneral_apply {φ₁ φ₂ : FTy} (prec : Option ContractPrecision) (sched : HostSchedule)
    (l : FVec Ideal ⟨2, ![A, K]⟩ φ₁) (r : FVec Ideal ⟨2, ![K, B]⟩ φ₂) (a : Fin A) (b : Fin B) :
    FloatOps.dotGeneral (denseDims A K B wf) prec sched l r (ix2 a b) = ∑ k : Fin K, l (ix2 a k) * r (ix2 k b) := by
  rw [Ideal.dotGeneral_apply]
  exact dense_sum wf l r a b

end

end Cert.Lib.Dense

end
-- ==== Proof.Spec.lean ====
/-
  One expert's gated feed-forward network, element by element, on the extended reals.

  A token buffer `xe : [8, 1280, 1024]` (expert, slot, feature) and per-expert weights `wg, wu : [8, 1024, 2816]`,
  `wd : [8, 2816, 1024]`. For expert `e` and slot `p` the hidden unit `h` holds
      g · σ(g) · u,   g = Σ_d xe(e,p,d) · wg(e,d,h),   u = Σ_d xe(e,p,d) · wu(e,d,h),   σ(g) = 1 / (1 + e^(-g)),
  and the output feature `j` is the sum over `h` of the hidden unit times `wd(e,h,j)`. Every sum is the exact sum
  of extended reals; nothing here needs the summands finite, because the two programs compared against this function
  form the same sums of the same products.
-/
import Idealize.ShloMosaic.PureOps.Ideal
import Idealize.ShloMosaic.Lib.ValueIdx

noncomputable section

open scoped BigOperators

namespace Cert.Moe

open Idealize.ShloMosaic Idealize.ShloMosaic.ValueIdx

/-- The token buffer's and the output's shape: expert, slot, feature. -/
abbrev SX : Shape := ⟨3, ![8, 1280, 1024]⟩
/-- The up-projections' shape: expert, feature, hidden unit. -/
abbrev SW : Shape := ⟨3, ![8, 1024, 2816]⟩
/-- The down-projection's shape: expert, hidden unit, feature. -/
abbrev SD : Shape := ⟨3, ![8, 2816, 1024]⟩

/-- The gated unit: `g · σ(g) · u`. -/
def gate (g u : EReal) : EReal := g * Ideal.logistic g * u

/-- The hidden unit `h` of expert `e` at slot `p`. -/
def hidden (xe : SX.Idx → EReal) (wg wu : SW.Idx → EReal) (e : Fin 8) (p : Fin 1280) (h : Fin 2816) : EReal :=
  gate (∑ d : Fin 1024, xe (ix3 e p d) * wg (ix3 e d h)) (∑ d : Fin 1024, xe (ix3 e p d) * wu (ix3 e d h))

/-- The output feature `j` of expert `e` at slot `p`. -/
def ffnAt (xe : SX.Idx → EReal) (wg wu : SW.Idx → EReal) (wd : SD.Idx → EReal) (e : Fin 8) (p : Fin 1280) (j : Fin 1024) :
    EReal :=
  ∑ h : Fin 2816, hidden xe wg wu e p h * wd (ix3 e h j)

/-- The whole output array. -/
def ffn (xe : SX.Idx → EReal) (wg wu : SW.Idx → EReal) (wd : SD.Idx → EReal) : SX.Idx → EReal :=
  fun i => ffnAt xe wg wu wd (i 0) (i 1) (i 2)

theorem ffn_ix3 (xe : SX.Idx → EReal) (wg wu : SW.Idx → EReal) (wd : SD.Idx → EReal) (e : Fin 8) (p : Fin 1280)
    (j : Fin 1024) : ffn xe wg wu wd (ix3 e p j) = ffnAt xe wg wu wd e p j := rfl

end Cert.Moe

end
-- ==== Proof.FfnBody.lean ====
/-
  What the kernel body stores, read at an element.

  At one grid point the body holds a block of 128 slots of one expert, `x0 : [1, 128, 1024]`, and that expert's three
  weight matrices `x1, x2 : [1, 1024, 2816]`, `x3 : [1, 2816, 1024]`. It forms the two up-projections on the matrix unit
  (into zero accumulators), gates them, and forms the down-projection. At the ideal instance a matrix-unit product is the
  exact sum over the contracted coordinate and a change of float format is the identity, so the stored block at
  `(0, r, j)` is the sum over the hidden units of the gated unit times the down-projection weight.
-/
import proofs.«141049_j63694364999794_2_alg».proof.Proof.Gen.KernelIdeal.Skeleton
import proofs.«141049_j63694364999794_2_alg».proof.Proof.LibDense
import proofs.«141049_j63694364999794_2_alg».proof.Proof.Spec
import Idealize.ShloMosaic.Lib.ValueLayout

noncomputable section

open scoped BigOperators

namespace Cert.KernelIdeal.Body

open Cert.KernelIdeal Cert.KernelIdeal.Gen Idealize.ShloMosaic Idealize.ShloMosaic.ValueIdx Cert.Moe Cert.Lib.Dense

variable [Facts]

/-- The stored block at slot `r` and feature `j`. -/
theorem pay_apply (x0 : FVec Ideal S1x128x1024 .bf16) (x1 x2 : FVec Ideal S1x1024x2816 .bf16)
    (x3 : FVec Ideal S1x2816x1024 .bf16) (r : Fin 128) (j : Fin 1024) :
    k0_pay1 (F := Ideal) x0 x1 x2 x3 (ix3 (0 : Fin 1) r j)
      = ∑ h : Fin 2816,
          gate (∑ d : Fin 1024, x0 (ix3 (0 : Fin 1) r d) * x1 (ix3 (0 : Fin 1) d h))
               (∑ d : Fin 1024, x0 (ix3 (0 : Fin 1) r d) * x2 (ix3 (0 : Fin 1) d h))
            * x3 (ix3 (0 : Fin 1) h j) := by
  unfold k0_pay1
  refine (shapeCast_ab_1ab_apply _ _ (0 : Fin 1) r j).trans ?_
  refine (dense_matmul_apply Gen.dot_S128x2816_S2816x1024_S128x1024_1_0_0_1_n_n_wf none _ _ r j).trans ?_
  refine Finset.sum_congr rfl fun h _ => ?_
  refine congrArg₂ (· * ·) ?_ (shapeCast_1ab_ab_apply x3 _ h j)
  have hg := dense_matmul_apply Gen.dot_S128x1024_S1024x2816_S128x2816_1_0_0_1_n_n_wf none
    (shapeCast S128x1024 x0 Gen.shapeCasts_S1x128x1024_S128x1024) (shapeCast S1024x2816 x1 Gen.shapeCasts_S1x1024x2816_S1024x2816) r h
  have hu := dense_matmul_apply Gen.dot_S128x1024_S1024x2816_S128x2816_1_0_0_1_n_n_wf none
    (shapeCast S128x1024 x0 Gen.shapeCasts_S1x128x1024_S128x1024) (shapeCast S1024x2816 x2 Gen.shapeCasts_S1x1024x2816_S1024x2816) r h
  have key := congrArg₂ (· * ·) (congrArg₂ (· * ·) hg (congrArg Ideal.logistic hg)) hu
  refine Eq.trans ?_ (key.trans ?_)
  · rfl
  · have e0 : ∀ d : Fin 1024, shapeCast S128x1024 x0 Gen.shapeCasts_S1x128x1024_S128x1024 (ix2 r d) = x0 (ix3 (0 : Fin 1) r d) :=
      fun d => shapeCast_1ab_ab_apply x0 _ r d
    have e1 : ∀ d : Fin 1024, shapeCast S1024x2816 x1 Gen.shapeCasts_S1x1024x2816_S1024x2816 (ix2 d h) = x1 (ix3 (0 : Fin 1) d h) :=
      fun d => shapeCast_1ab_ab_apply x1 _ d h
    have e2 : ∀ d : Fin 1024, shapeCast S1024x2816 x2 Gen.shapeCasts_S1x1024x2816_S1024x2816 (ix2 d h) = x2 (ix3 (0 : Fin 1) d h) :=
      fun d => shapeCast_1ab_ab_apply x2 _ d h
    unfold gate
    simp only [e0, e1, e2]

end Cert.KernelIdeal.Body

end
-- ==== Proof.KernelArray.lean ====
/-
  From the blocks the grid points write back to the whole output array.

  The grid has 8 × 10 points, the last axis fastest: point `t` is expert `e = t / 10` and slot tile `k = t % 10`. At that
  point the body holds rows `128 k … 128 k + 127` of expert `e`'s token buffer and all of expert `e`'s three weight
  matrices, and the block it writes back is rows `128 k … 128 k + 127` of expert `e`'s output. An element `(e, p, j)`
  of the output is therefore written by the point `(e, p / 128)` at the block coordinate `(0, p % 128, j)`, and what
  is written there is the expert network's value at `(e, p, j)`: the body's sum over the hidden units, with every block
  element replaced by the array element it was read from. The ten tiles of each expert cover its 1280 slots, so
  after the last point the output array is the expert network of the four arrays, element by element.
-/
import proofs.«141049_j63694364999794_2_alg».proof.Proof.Gen.KernelIdeal.Frame
import proofs.«141049_j63694364999794_2_alg».proof.Proof.FfnBody
import proofs.«141049_j63694364999794_2_alg».proof.Proof.Spec
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Moe
open Idealize.ShloMosaic.Pipeline (Dat)

variable (m : (ℓ : Loc nD τ sig) → Buf (Elt Ideal) ℓ)

/-- The zero offset of a whole-block access. -/
theorem zero_offset : (![0, 0, 0] : Fin 3 → Nat) = fun _ => 0 := funext fun a => by fin_cases a <;> rfl

/-- The block indices of the five windows at every grid point, decided over the 80 points: the token block and the
    output block are block `(t / 10, t % 10, 0)` of their arrays, the three weight blocks are block `(t / 10, 0, 0)`. -/
theorem block_index : ∀ t : Fin cfg0.N,
    win0_4.index t (0 : Fin 3) = t.val / 10 ∧ win0_4.index t (1 : Fin 3) = t.val % 10 ∧ win0_4.index t (2 : Fin 3) = 0
    ∧ win0_0.index t (0 : Fin 3) = t.val / 10 ∧ win0_0.index t (1 : Fin 3) = t.val % 10 ∧ win0_0.index t (2 : Fin 3) = 0
    ∧ win0_1.index t (0 : Fin 3) = t.val / 10 ∧ win0_1.index t (1 : Fin 3) = 0 ∧ win0_1.index t (2 : Fin 3) = 0
    ∧ win0_2.index t (0 : Fin 3) = t.val / 10 ∧ win0_2.index t (1 : Fin 3) = 0 ∧ win0_2.index t (2 : Fin 3) = 0
    ∧ win0_3.index t (0 : Fin 3) = t.val / 10 ∧ win0_3.index t (1 : Fin 3) = 0 ∧ win0_3.index t (2 : Fin 3) = 0 :=
  (by decide +kernel : ∀ t : Fin grid0.N, _)

/-- What one point stores at slot `r` and feature `j` of its block, when the token block's row `r` is row `p` of expert
    `e`'s tokens and the three weight blocks are expert `e`'s matrices: the expert network at `(e, p, j)`. -/
theorem stored_value (xe : SX.Idx → EReal) (wg wu : SW.Idx → EReal) (wd : SD.Idx → EReal)
    (x0 : FVec Ideal S1x128x1024 .bf16) (x1 x2 : FVec Ideal S1x1024x2816 .bf16) (x3 : FVec Ideal S1x2816x1024 .bf16)
    (e : Fin 8) (p : Fin 1280) (r : Fin 128) (j : Fin 1024)
    (h0 : ∀ d : Fin 1024, x0 (ix3 (0 : Fin 1) r d) = xe (ix3 e p d))
    (h1 : ∀ (d : Fin 1024) (h : Fin 2816), x1 (ix3 (0 : Fin 1) d h) = wg (ix3 e d h))
    (h2 : ∀ (d : Fin 1024) (h : Fin 2816), x2 (ix3 (0 : Fin 1) d h) = wu (ix3 e d h))
    (h3 : ∀ h : Fin 2816, x3 (ix3 (0 : Fin 1) h j) = wd (ix3 e h j)) :
    k0_pay1 (F := Ideal) x0 x1 x2 x3 (ix3 (0 : Fin 1) r j) = ffnAt xe wg wu wd e p j := by
  rw [Body.pay_apply]
  unfold ffnAt Moe.hidden
  simp only [h0, h1, h2, h3]

/-- Row `r` of the token block at point `t` is row `128 (t % 10) + r` of expert `t / 10`'s tokens. -/
theorem tokens_read (A : SX.Idx → EReal) (t : Fin cfg0.N) (e : Fin 8) (p : Fin 1280) (r : Fin 128) (d : Fin 1024) (he : e.val = t.val / 10) (hp : p.val = 128 * (t.val % 10) + r.val) :
    (((cfg0.win 0).blk t).view.read (Elt Ideal) A : FVec Ideal S1x128x1024 .bf16) (ix3 (0 : Fin 1) r d)
      = A (ix3 e p d) := by
  obtain ⟨-, -, -, a0, a1, a2, -⟩ := block_index t
  show A (((cfg0.win 0).blk t).view.emb (ix3 (0 : Fin 1) r d)) = A (ix3 e p d)
  refine congrArg A ?_
  funext a; apply Fin.ext
  match a with
  | ⟨0, _⟩ => show win0_0.index t (0 : Fin 3) * 1 + 1 * (0 : Nat) = e.val; omega
  | ⟨1, _⟩ => show win0_0.index t (1 : Fin 3) * 128 + 1 * r.val = p.val; omega
  | ⟨2, _⟩ => show win0_0.index t (2 : Fin 3) * 1024 + 1 * d.val = d.val; omega

/-- The first up-projection block at point `t` is expert `t / 10`'s whole matrix. -/
theorem gate_weights_read (A : SW.Idx → EReal) (t : Fin cfg0.N) (e : Fin 8) (d : Fin 1024) (h : Fin 2816) (he : e.val = t.val / 10) :
    (((cfg0.win 1).blk t).view.read (Elt Ideal) A : FVec Ideal S1x1024x2816 .bf16) (ix3 (0 : Fin 1) d h)
      = A (ix3 e d h) := by
  obtain ⟨-, -, -, -, -, -, a0, a1, a2, -⟩ := block_index t
  show A (((cfg0.win 1).blk t).view.emb (ix3 (0 : Fin 1) d h)) = A (ix3 e d h)
  refine congrArg A ?_
  funext a; apply Fin.ext
  match a with
  | ⟨0, _⟩ => show win0_1.index t (0 : Fin 3) * 1 + 1 * (0 : Nat) = e.val; omega
  | ⟨1, _⟩ => show win0_1.index t (1 : Fin 3) * 1024 + 1 * d.val = d.val; omega
  | ⟨2, _⟩ => show win0_1.index t (2 : Fin 3) * 2816 + 1 * h.val = h.val; omega

/-- The second up-projection block at point `t` is expert `t / 10`'s whole matrix. -/
theorem up_weights_read (A : SW.Idx → EReal) (t : Fin cfg0.N) (e : Fin 8) (d : Fin 1024) (h : Fin 2816) (he : e.val = t.val / 10) :
    (((cfg0.win 2).blk t).view.read (Elt Ideal) A : FVec Ideal S1x1024x2816 .bf16) (ix3 (0 : Fin 1) d h)
      = A (ix3 e d h) := by
  obtain ⟨-, -, -, -, -, -, -, -, -, a0, a1, a2, -⟩ := block_index t
  show A (((cfg0.win 2).blk t).view.emb (ix3 (0 : Fin 1) d h)) = A (ix3 e d h)
  refine congrArg A ?_
  funext a; apply Fin.ext
  match a with
  | ⟨0, _⟩ => show win0_2.index t (0 : Fin 3) * 1 + 1 * (0 : Nat) = e.val; omega
  | ⟨1, _⟩ => show win0_2.index t (1 : Fin 3) * 1024 + 1 * d.val = d.val; omega
  | ⟨2, _⟩ => show win0_2.index t (2 : Fin 3) * 2816 + 1 * h.val = h.val; omega

/-- The down-projection block at point `t` is expert `t / 10`'s whole matrix. -/
theorem down_weights_read (A : SD.Idx → EReal) (t : Fin cfg0.N) (e : Fin 8) (h : Fin 2816) (j : Fin 1024) (he : e.val = t.val / 10) :
    (((cfg0.win 3).blk t).view.read (Elt Ideal) A : FVec Ideal S1x2816x1024 .bf16) (ix3 (0 : Fin 1) h j)
      = A (ix3 e h j) := by
  obtain ⟨-, -, -, -, -, -, -, -, -, -, -, -, a0, a1, a2⟩ := block_index t
  show A (((cfg0.win 3).blk t).view.emb (ix3 (0 : Fin 1) h j)) = A (ix3 e h j)
  refine congrArg A ?_
  funext a; apply Fin.ext
  match a with
  | ⟨0, _⟩ => show win0_3.index t (0 : Fin 3) * 1 + 1 * (0 : Nat) = e.val; omega
  | ⟨1, _⟩ => show win0_3.index t (1 : Fin 3) * 2816 + 1 * h.val = h.val; omega
  | ⟨2, _⟩ => show win0_3.index t (2 : Fin 3) * 1024 + 1 * j.val = j.val; omega

/-- The block a point writes back, for any four arrays: the body's stored block, formed from the point's blocks of the
    arrays, is the point's block of the arrays' expert network. Element `(0, r, j)` of the block at point `t` sits at
    `(t / 10, 128 (t % 10) + r, j)` of the output array, and the body's value there is the network's. -/
theorem written_block (A0 : SX.Idx → EReal) (A1 A2 : SW.Idx → EReal) (A3 : SD.Idx → EReal) (t : Fin cfg0.N) :
    (cfg0.win 4).cut (grid0.coords t)
        (k0_pay1 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (ffn A0 A1 A2 A3) := by
  have ht : t.val < 80 := lt_of_lt_of_eq t.isLt N_0
  obtain ⟨o0, o1, o2, -⟩ := block_index t
  refine funext fun (y : S1x128x1024.Idx) => ?_
  obtain ⟨y0, r, j, rfl⟩ : ∃ (y0 : Fin 1) (r : Fin 128) (j : Fin 1024), y = ix3 y0 r j := ⟨y 0, y 1, y 2, eq_ix3 y⟩
  obtain rfl : y0 = 0 := Subsingleton.elim _ _
  have hr : r.val < 128 := r.isLt
  obtain ⟨e, he⟩ : ∃ e : Fin 8, e.val = t.val / 10 := ⟨⟨t.val / 10, by omega⟩, rfl⟩
  obtain ⟨p, hp⟩ : ∃ p : Fin 1280, p.val = 128 * (t.val % 10) + r.val := ⟨⟨128 * (t.val % 10) + r.val, by omega⟩, rfl⟩
  have hemb : ((cfg0.win 4).blk t).view.emb (ix3 (0 : Fin 1) r j) = (ix3 e p j : SX.Idx) := by
    funext a; apply Fin.ext
    match a with
    | ⟨0, _⟩ => show win0_4.index t (0 : Fin 3) * 1 + 1 * (0 : Nat) = e.val; omega
    | ⟨1, _⟩ => show win0_4.index t (1 : Fin 3) * 128 + 1 * r.val = p.val; omega
    | ⟨2, _⟩ => show win0_4.index t (2 : Fin 3) * 1024 + 1 * j.val = j.val; omega
  show k0_pay1 (F := Ideal) _ _ _ _ (ix3 (0 : Fin 1) r j)
    = ffn A0 A1 A2 A3 (((cfg0.win 4).blk t).view.emb (ix3 (0 : Fin 1) r j))
  refine (stored_value A0 A1 A2 A3 _ _ _ _ e p r j (fun d => tokens_read A0 t e p r d he hp)
    (fun d h => gate_weights_read A1 t e d h he) (fun d h => up_weights_read A2 t e d h he)
    (fun h => down_weights_read A3 t e h j he)).trans ?_
  exact (ffn_ix3 A0 A1 A2 A3 e p j).symm.trans (congrArg (ffn A0 A1 A2 A3) hemb.symm)

/-- What point `t` writes back to the output array is block `t` of the expert network of the four arrays as the region
    finds them. -/
theorem flushed_eq (c : Dev nD) (t : Fin cfg0.N) :
    (dats (F := Ideal) m 0 c).flushed 4 t
      = ((cfg0.win 4).blk t).view.read (Elt Ideal)
          (ffn (V m c main_v22) (V m c main_v23) (V m c main_v24) (V m c main_v25)) := by
  show (cfg0.win 4).cut (grid0.coords t) ((dats m 0 c).after 4 t) = _
  rw [after0_4]
  unfold out0_4
  rw [View.canon_unit_zero zero_offset]
  simp only [View.ld_unit_zero (S := S1x128x1024) zero_offset, View.ld_unit_zero (S := S1x1024x2816) zero_offset,
    View.ld_unit_zero (S := S1x2816x1024) zero_offset]
  unfold iblk
  exact written_block (V m c main_v22) (V m c main_v23) (V m c main_v24) (V m c main_v25) t

/-- An element of the output array is in point `t`'s block iff, on each axis, its coordinate is in the block's range. -/
theorem mem_block (t : Fin cfg0.N) (i : S8x1280x1024.Idx) :
    i ∈ ((cfg0.win 4).blk t).view.set
      ↔ ∀ a : Fin 3, win0_4.index t a * S1x128x1024.size a ≤ (i a).val
          ∧ (i a).val < win0_4.index t a * S1x128x1024.size a + S1x128x1024.size a := by
  show i ∈ ((View.whole main_v26).slice (win0_4.rect t)).set ↔ _
  rw [View.set_slice_whole, Rect.mem_set_unit]
  exact Iff.rfl

/-- The blocks cover the output array: the element `(e, p, j)` is in the block of the point `10 e + p / 128`, the
    point of expert `e` and slot tile `p / 128`, whose block holds the slots `128 (p / 128) … 128 (p / 128) + 127`. -/
theorem covered (i : S8x1280x1024.Idx) :
    ∃ t : Fin cfg0.N, (cfg0.win 4).flush t = true ∧ i ∈ ((cfg0.win 4).blk t).view.set := by
  have hi0 : (i 0).val < 8 := (i 0).isLt
  have hi1 : (i 1).val < 1280 := (i 1).isLt
  have hi2 : (i 2).val < 1024 := (i 2).isLt
  have hN : cfg0.N = 80 := N_0
  obtain ⟨t, ht⟩ : ∃ t : Fin cfg0.N, t.val = 10 * (i 0).val + (i 1).val / 128 :=
    ⟨⟨10 * (i 0).val + (i 1).val / 128, by rw [hN]; omega⟩, rfl⟩
  obtain ⟨o0, o1, o2, -⟩ := block_index t
  refine ⟨t, flush0_4 t, ?_⟩
  rw [mem_block]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 128 ≤ (i 1).val ∧ (i 1).val < win0_4.index t (1 : Fin 3) * 128 + 128
    omega
  | ⟨2, _⟩ =>
    show win0_4.index t (2 : Fin 3) * 1024 ≤ (i 2).val ∧ (i 2).val < win0_4.index t (2 : Fin 3) * 1024 + 1024
    omega

variable [Facts]

/-- After all 80 grid points the output array is the expert network of the four arrays as the region found them,
    element by element: every point writes its block of that one function, and the blocks cover the array. -/
theorem final (c : Dev nD) :
    (Gen.dats (F := Ideal) m 0 c).arrAt 4 cfg0.N
      = Cert.Moe.ffn (Gen.V m c main_v22) (Gen.V m c main_v23) (Gen.V m c main_v24) (Gen.V m c main_v25) :=
  (dats (F := Ideal) m 0 c).arrAt_eq_of_cover 4
    (ffn (V m c main_v22) (V m c main_v23) (V m c main_v24) (V m c main_v25))
    (fun t _ => flushed_eq m c t) covered

end Cert.KernelIdeal.Blocks

end
-- ==== Proof.Layer.lean ====
/-
  The whole layer as one function of the six arguments, and the two programs' results as that function.

  `moe x idx sc wg wu wd`: route the tokens by `idx`, dispatch their rows into a zero buffer, run every expert's gated
  network on its slots, and combine. The kernel program narrows the tokens and the weights to bf16 before the launch and
  starts the dispatch from a bf16 zero buffer; at the ideal instance a narrowing is the identity and either zero word
  is the extended real 0, so the launch stages exactly the arrays the reference computes on, and the launch's output
  array is the specification's network of them. The reference's host network is the specification's as well.
-/
import proofs.«141049_j63694364999794_2_alg».proof.Proof.Spec
import proofs.«141049_j63694364999794_2_alg».proof.Proof.Routing

noncomputable section

namespace Cert.Moe

open Idealize.ShloMosaic

/-- The layer. -/
def moe (x : TF.Idx → EReal) (idx : IVec TK 32) (sc : TK.Idx → EReal) (wg wu : SW.Idx → EReal) (wd : SD.Idx → EReal) :
    TF.Idx → EReal :=
  combined (F := Ideal) (ffn (dispatched (fun _ => (0 : EReal)) x (slot idx)) wg wu wd) x (slot idx) (kept idx) sc

end Cert.Moe

end
-- ==== Proof.KernValue.lean ====
/-
  The kernel program's result is the layer of its arguments.

  The launch's output array is the experts' network of the four arrays the launch stages; those are the dispatched
  narrowed tokens and the narrowed weights, and at the ideal instance a narrowing to bf16 is the identity and the bf16
  zero word is the extended real 0. The lines after the launch combine that array with the tokens, slots, kept bits and
  scores, none of which the launch touches.
-/
import proofs.«141049_j63694364999794_2_alg».proof.Proof.KernRead
import proofs.«141049_j63694364999794_2_alg».proof.Proof.KernelArray
import proofs.«141049_j63694364999794_2_alg».proof.Proof.Layer

noncomputable section

namespace Cert.KernelIdeal.Whole

open Cert.KernelIdeal Cert.KernelIdeal.Gen Idealize.ShloMosaic Idealize.ShloMosaic.TcCoe Idealize.ShloMosaic.StableHlo
open Idealize.SL.Sem Cert.Moe

variable (m : (ℓ : Loc nD τ sig) → Buf (Elt Ideal) ℓ) (ρ : Dev nD → PrngReg)

/-- The bf16 zero word is the extended real 0. -/
theorem zero_bf16 : Ideal.ofBits .bf16 0x0000#16 = 0 := by simp [Ideal.ofBits, Ideal.ieee]

/-- The launch's output array: the network of the dispatched tokens and the weights. -/
theorem out_array (c : Dev nD) :
    (dats (F := Ideal) m 0 c).arrAt 4 cfg0.N
      = ffn (dispatched (fun _ => (0 : EReal)) (m ((c : Thread nD τ).loc main_arg0)) (slot (m ((c : Thread nD τ).loc main_arg1))))
          (m ((c : Thread nD τ).loc main_arg3)) (m ((c : Thread nD τ).loc main_arg4)) (m ((c : Thread nD τ).loc main_arg5)) := by
  rw [Blocks.final, Read.entry_xe, Read.entry_wg, Read.entry_wu, Read.entry_wd]
  have hz : broadcastInDim S10241x1024 ![] Gen.bcast_S_S10241x1024 (constant (F := Ideal) S_ .bf16 0x0000#16)
      = fun _ => (0 : EReal) := funext fun _ => zero_bf16
  rw [hz]
  rfl

/-- What the lines after the launch leave in the result buffer. -/
theorem tail_value (c : Dev nD) :
    Pipeline.afterTail₀ cfgs (dats (F := Ideal) m) 0 (V0 m) [hostOps1, hostOps1_1] c main_v41
      = moe (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  rw [Read.tail_out]
  have h26 : Pipeline.withArrays (cfgs 0).spec c (V0 m c) (fun w => (dats (F := Ideal) m 0 c).arrAt w (cfgs 0).N) (Proc.devRef .tc main_v26)
      = (dats (F := Ideal) m 0 c).arrAt 4 cfg0.N :=
    Pipeline.withArrays_arr spec0 launch0.win.arr_inj c _ _ 4
  rw [h26, out_array,
    Pipeline.withArrays_of_ne _ c (V0 m c) _ main_arg0 (by exact (by decide : ∀ w, Pipeline.arrRef spec0 w ≠ main_arg0)),
    Pipeline.withArrays_of_ne _ c (V0 m c) _ main_v11 (by exact (by decide : ∀ w, Pipeline.arrRef spec0 w ≠ main_v11)),
    Pipeline.withArrays_of_ne _ c (V0 m c) _ main_v7 (by exact (by decide : ∀ w, Pipeline.arrRef spec0 w ≠ main_v7)),
    Pipeline.withArrays_of_ne _ c (V0 m c) _ main_arg2 (by exact (by decide : ∀ w, Pipeline.arrRef spec0 w ≠ main_arg2)),
    Read.entry_slot, Read.entry_kept]
  rw [show V0 m c (Proc.devRef .tc main_arg0) = m ((c : Thread nD τ).loc main_arg0) from V_main_arg0 m c,
    show V0 m c (Proc.devRef .tc main_arg2) = m ((c : Thread nD τ).loc main_arg2) from V_main_arg2 m c]
  rfl

/-- Every weakly fair execution of the kernel program terminates with the result at the layer of the arguments and
    the arguments unchanged. -/
theorem run : θ_run defs (onTc (τ := τ) (main (F := Ideal))) ⟨m, fun _ => 0, ρ⟩ (fun r => ∀ c : Dev nD,
      r.2.mem ((c.tc : Thread nD τ).loc main_v41)
        = moe (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v41 (Pipeline.mem_restRefs_of main_v41 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.LibStretch.lean ====
/-
  Host stretches one after the other. What a straight line of host operations leaves in every buffer is a fold of the
  operations' results over the contents it starts from; the fold over a concatenation of two lines is the fold over the
  second line of what the first line leaves. A long line can therefore be cut anywhere, and what a buffer holds after a
  piece is read from that piece alone, over the contents the previous piece left.
-/
import Idealize.ShloMosaic.Lib.StableHlo.Run

noncomputable section

namespace Cert.Lib.Stretch

open Idealize.ShloMosaic Idealize.ShloMosaic.StableHlo

variable {τ : Topo} {sig : RefSig} {Val : EltTy → Type}

/-- The fold over a concatenation of two lines of host operations is the fold over the second of the fold over the
    first: `after (l₁ ++ l₂) V = after l₂ (after l₁ V)`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.Stretch

end
-- ==== Proof.RefLine.lean ====
/-
  The reference program as a straight line of host operations, and its run.

  The reference's main function calls five small functions (the one-hot encoding, the running count along the token
  axis, two selects and the gated activation's sigmoid factor); with each call replaced by the callee's own lines over
  that call's buffers the program is ONE line of 71 host operations, cut here into four stretches after what they
  compute: the ROUTING of each token (its position in its expert's queue, whether it is kept, its slot), the DISPATCH of
  the tokens into the per-expert buffer, the experts' NETWORK, and the COMBINE step that brings every token its expert's
  output. Every weakly fair execution of the program terminates, and each buffer then holds what the fold of the
  operations' results over the launch contents gives it.
-/
import proofs.«141049_j63694364999794_2_alg».proof.Proof.Gen.ReferenceIdeal
import proofs.«141049_j63694364999794_2_alg».proof.Proof.LibStretch
import Idealize.ShloMosaic.Lib.StableHlo.Run

noncomputable section

namespace Cert.ReferenceIdeal.Line

open Cert.ReferenceIdeal Idealize.ShloMosaic Idealize.ShloMosaic.TcCoe Idealize.SL.Sem Idealize.ShloMosaic.StableHlo
open Facts₀

variable {F : FTy → Type} [FloatOps F]

/-- ROUTING: the one-hot of the expert index, its running count along the tokens, each token's position in its
    expert's queue, whether the position is below the capacity, and the token's slot (the overflow slot if not). -/
abbrev route : List (HloOp τ sig (Elt F)) :=
  [ TRef.unary (.of main_arg1 : TRef sig ⟨S8192, .i32⟩) (.of main_call0_v0 : TRef sig ⟨S8192x1, .i32⟩) (broadcastInDim S8192x1 ![0] bcast_S8192_S8192x1_0),
    TRef.nullary (.of main_call0_v1 : TRef sig ⟨S1x8, .i32⟩) (iotaInDim S1x8 32 1),
    TRef.unary (.of main_call0_v0 : TRef sig ⟨S8192x1, .i32⟩) (.of main_call0_v2 : TRef sig ⟨S8192x8, .i32⟩) (broadcastInDim S8192x8 ![0, 1] bcast_S8192x1_S8192x8_0_1),
    TRef.unary (.of main_call0_v1 : TRef sig ⟨S1x8, .i32⟩) (.of main_call0_v3 : TRef sig ⟨S8192x8, .i32⟩) (broadcastInDim S8192x8 ![0, 1] bcast_S1x8_S8192x8_0_1),
    TRef.binary (.of main_call0_v2 : TRef sig ⟨S8192x8, .i32⟩) (.of main_call0_v3 : TRef sig ⟨S8192x8, .i32⟩) (.of main_call0_v4 : TRef sig ⟨S8192x8, .i1⟩) (cmpi .eq),
    TRef.unary (.of main_call0_v4 : TRef sig ⟨S8192x8, .i1⟩) (.of main_v0 : TRef sig ⟨S8192x8, .i32⟩) (extui 32 · natLt_1_32),
    TRef.nullary (.of main_call1_call0_c : TRef sig ⟨S_, .i32⟩) (constantI S_ 32 0#32),
    TRef.unary (.of main_call1_call0_c : TRef sig ⟨S_, .i32⟩) (.of main_call1_call0_v0 : TRef sig ⟨S_, .i32⟩) (broadcastInDim S_ ![] bcast_S_S_),
    TRef.binary (.of main_v0 : TRef sig ⟨S8192x8, .i32⟩) (.of main_call1_call0_v0 : TRef sig ⟨S_, .i32⟩) (.of main_v1 : TRef sig ⟨S8192x8, .i32⟩) (fun x v => Host.reduceWindow IntOp.addi ![8192, 1] ![1, 1] ![8191, 0] ![0, 0] x v reduceWindows_S8192x8_S8192x8_w8192s1p8191_0_w1s1p0_0 h_S_),
    nullary main_c (constantI S_ 32 1#32),
    unary main_c main_v2 (broadcastInDim S8192x8 ![] bcast_S_S8192x8 : (⟨S_, .i32⟩ : BufTy).Contents (Elt F) → (⟨S8192x8, .i32⟩ : BufTy).Contents (Elt F)),
    binary main_v1 main_v2 main_v3 (subi : (⟨S8192x8, .i32⟩ : BufTy).Contents (Elt F) → (⟨S8192x8, .i32⟩ : BufTy).Contents (Elt F) → (⟨S8192x8, .i32⟩ : BufTy).Contents (Elt F)),
    binary main_v3 main_v0 main_v4 (muli : (⟨S8192x8, .i32⟩ : BufTy).Contents (Elt F) → (⟨S8192x8, .i32⟩ : BufTy).Contents (Elt F) → (⟨S8192x8, .i32⟩ : BufTy).Contents (Elt F)),
    nullary main_c_0 (constantI S_ 32 0#32),
    binary main_v4 main_c_0 main_v5 ((fun x v => Host.reduce IntOp.addi x v reducesTo_S8192x8_S8192_d1 h_S_) : (⟨S8192x8, .i32⟩ : BufTy).Contents (Elt F) → (⟨S_, .i32⟩ : BufTy).Contents (Elt F) → (⟨S8192, .i32⟩ : BufTy).Contents (Elt F)),
    nullary main_c_1 (constantI S_ 32 1280#32),
    unary main_c_1 main_v6 (broadcastInDim S8192 ![] bcast_S_S8192 : (⟨S_, .i32⟩ : BufTy).Contents (Elt F) → (⟨S8192, .i32⟩ : BufTy).Contents (Elt F)),
    binary main_v5 main_v6 main_v7 (cmpi .slt : (⟨S8192, .i32⟩ : BufTy).Contents (Elt F) → (⟨S8192, .i32⟩ : BufTy).Contents (Elt F) → (⟨S8192, .i1⟩ : BufTy).Contents (Elt F)),
    nullary main_c_2 (constantI S_ 32 1280#32),
    unary main_c_2 main_v8 (broadcastInDim S8192 ![] bcast_S_S8192 : (⟨S_, .i32⟩ : BufTy).Contents (Elt F) → (⟨S8192, .i32⟩ : BufTy).Contents (Elt F)),
    binary main_arg1 main_v8 main_v9 (muli : (⟨S8192, .i32⟩ : BufTy).Contents (Elt F) → (⟨S8192, .i32⟩ : BufTy).Contents (Elt F) → (⟨S8192, .i32⟩ : BufTy).Contents (Elt F)),
    binary main_v9 main_v5 main_v10 (addi : (⟨S8192, .i32⟩ : BufTy).Contents (Elt F) → (⟨S8192, .i32⟩ : BufTy).Contents (Elt F) → (⟨S8192, .i32⟩ : BufTy).Contents (Elt F)),
    nullary main_c_3 (constantI S_ 32 10240#32),
    TRef.unary (.of main_c_3 : TRef sig ⟨S_, .i32⟩) (.of main_call2_v0 : TRef sig ⟨S_, .i32⟩) id,
    TRef.unary (.of main_call2_v0 : TRef sig ⟨S_, .i32⟩) (.of main_call2_v1 : TRef sig ⟨S8192, .i32⟩) (broadcastInDim S8192 ![] bcast_S_S8192),
    TRef.ternary (.of main_v7 : TRef sig ⟨S8192, .i1⟩) (.of main_v10 : TRef sig ⟨S8192, .i32⟩) (.of main_call2_v1 : TRef sig ⟨S8192, .i32⟩) (.of main_v11 : TRef sig ⟨S8192, .i32⟩) select ]

/-- DISPATCH: a zero buffer with one overflow row, the slots as a column (a negative slot wrapped), the tokens
    scattered to their slots, the overflow row cut off, the rows grouped by expert. -/
abbrev dispatch : List (HloOp τ sig (Elt F)) :=
  [ nullary main_cst (constant S_ .f32 0x00000000#32),
    unary main_cst main_v12 (broadcastInDim S10241x1024 ![] bcast_S_S10241x1024 : (⟨S_, .f32⟩ : BufTy).Contents (Elt F) → (⟨S10241x1024, .f32⟩ : BufTy).Contents (Elt F)),
    nullary main_c_4 (constantI S_ 32 0#32),
    unary main_c_4 main_v13 (broadcastInDim S8192 ![] bcast_S_S8192 : (⟨S_, .i32⟩ : BufTy).Contents (Elt F) → (⟨S8192, .i32⟩ : BufTy).Contents (Elt F)),
    binary main_v11 main_v13 main_v14 (cmpi .slt : (⟨S8192, .i32⟩ : BufTy).Contents (Elt F) → (⟨S8192, .i32⟩ : BufTy).Contents (Elt F) → (⟨S8192, .i1⟩ : BufTy).Contents (Elt F)),
    nullary main_c_5 (constantI S_ 32 10241#32),
    unary main_c_5 main_v15 (broadcastInDim S8192 ![] bcast_S_S8192 : (⟨S_, .i32⟩ : BufTy).Contents (Elt F) → (⟨S8192, .i32⟩ : BufTy).Contents (Elt F)),
    binary main_v11 main_v15 main_v16 (addi : (⟨S8192, .i32⟩ : BufTy).Contents (Elt F) → (⟨S8192, .i32⟩ : BufTy).Contents (Elt F) → (⟨S8192, .i32⟩ : BufTy).Contents (Elt F)),
    ternary main_v14 main_v16 main_v11 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v17 main_v18 (broadcastInDim S8192x1 ![0] bcast_S8192_S8192x1_0 : (⟨S8192, .i32⟩ : BufTy).Contents (Elt F) → (⟨S8192x1, .i32⟩ : BufTy).Contents (Elt F)),
    ternary main_v12 main_v18 main_arg0 main_v19 ((fun x i u => Host.scatter scatter_S10241x1024_S8192x1_S8192x1024_1_0_0_1 (fun _ b => b) x i u) : (⟨S10241x1024, .f32⟩ : BufTy).Contents (Elt F) → (⟨S8192x1, .i32⟩ : BufTy).Contents (Elt F) → (⟨S8192x1024, .f32⟩ : BufTy).Contents (Elt F) → (⟨S10241x1024, .f32⟩ : BufTy).Contents (Elt F)),
    unary main_v19 main_v20 ((extractStridedSlice S10240x1024 ![0, 0] · slices_S10241x1024_S10240x1024_0_0) : (⟨S10241x1024, .f32⟩ : BufTy).Contents (Elt F) → (⟨S10240x1024, .f32⟩ : BufTy).Contents (Elt F)),
    reshape main_v20 main_v21 rfl shapeCasts_S10240x1024_S8x1280x1024 ]

/-- NETWORK: the two up-projections, the gate `g · (1 / (1 + e^(-g)))` times the other, the down-projection. -/
abbrev network : List (HloOp τ sig (Elt F)) :=
  [ binary main_v21 main_arg3 main_v22 ((fun l r => Host.dotGeneral dot_S8x1280x1024_S8x1024x2816_S8x1280x2816_2_1_1_2_0_0 none l r) : (⟨S8x1280x1024, .f32⟩ : BufTy).Contents (Elt F) → (⟨S8x1024x2816, .f32⟩ : BufTy).Contents (Elt F) → (⟨S8x1280x2816, .f32⟩ : BufTy).Contents (Elt F)),
    binary main_v21 main_arg4 main_v23 ((fun l r => Host.dotGeneral dot_S8x1280x1024_S8x1024x2816_S8x1280x2816_2_1_1_2_0_0 none l r) : (⟨S8x1280x1024, .f32⟩ : BufTy).Contents (Elt F) → (⟨S8x1024x2816, .f32⟩ : BufTy).Contents (Elt F) → (⟨S8x1280x2816, .f32⟩ : BufTy).Contents (Elt F)),
    TRef.unary (.of main_v22 : TRef sig ⟨S8x1280x2816, .f32⟩) (.of main_call3_v0 : TRef sig ⟨S8x1280x2816, .f32⟩) Host.negf,
    TRef.unary (.of main_call3_v0 : TRef sig ⟨S8x1280x2816, .f32⟩) (.of main_call3_v1 : TRef sig ⟨S8x1280x2816, .f32⟩) Host.exp,
    TRef.nullary (.of main_call3_cst : TRef sig ⟨S_, .f32⟩) (constant S_ .f32 0x3F800000#32),
    TRef.unary (.of main_call3_cst : TRef sig ⟨S_, .f32⟩) (.of main_call3_v2 : TRef sig ⟨S8x1280x2816, .f32⟩) (broadcastInDim S8x1280x2816 ![] bcast_S_S8x1280x2816),
    TRef.binary (.of main_call3_v2 : TRef sig ⟨S8x1280x2816, .f32⟩) (.of main_call3_v1 : TRef sig ⟨S8x1280x2816, .f32⟩) (.of main_call3_v3 : TRef sig ⟨S8x1280x2816, .f32⟩) addf,
    TRef.nullary (.of main_call3_cst_0 : TRef sig ⟨S_, .f32⟩) (constant S_ .f32 0x3F800000#32),
    TRef.unary (.of main_call3_cst_0 : TRef sig ⟨S_, .f32⟩) (.of main_call3_v4 : TRef sig ⟨S8x1280x2816, .f32⟩) (broadcastInDim S8x1280x2816 ![] bcast_S_S8x1280x2816),
    TRef.binary (.of main_call3_v4 : TRef sig ⟨S8x1280x2816, .f32⟩) (.of main_call3_v3 : TRef sig ⟨S8x1280x2816, .f32⟩) (.of main_call3_v5 : TRef sig ⟨S8x1280x2816, .f32⟩) Host.divf,
    TRef.binary (.of main_v22 : TRef sig ⟨S8x1280x2816, .f32⟩) (.of main_call3_v5 : TRef sig ⟨S8x1280x2816, .f32⟩) (.of main_v24 : TRef sig ⟨S8x1280x2816, .f32⟩) mulf,
    binary main_v24 main_v23 main_v25 (mulf : (⟨S8x1280x2816, .f32⟩ : BufTy).Contents (Elt F) → (⟨S8x1280x2816, .f32⟩ : BufTy).Contents (Elt F) → (⟨S8x1280x2816, .f32⟩ : BufTy).Contents (Elt F)),
    binary main_v25 main_arg5 main_v26 ((fun l r => Host.dotGeneral dot_S8x1280x2816_S8x2816x1024_S8x1280x1024_2_1_1_2_0_0 none l r) : (⟨S8x1280x2816, .f32⟩ : BufTy).Contents (Elt F) → (⟨S8x2816x1024, .f32⟩ : BufTy).Contents (Elt F) → (⟨S8x1280x1024, .f32⟩ : BufTy).Contents (Elt F)) ]

/-- COMBINE: the experts' rows flattened, a zero overflow row appended, each token's row gathered back, scaled by the
    token's score where the token was kept, the token itself where it was dropped. -/
abbrev combine : List (HloOp τ sig (Elt F)) :=
  [ reshape main_v26 main_v27 rfl shapeCasts_S8x1280x1024_S10240x1024,
    nullary main_cst_6 (constant S_ .f32 0x00000000#32),
    unary main_cst_6 main_v28 (broadcastInDim S1x1024 ![] bcast_S_S1x1024 : (⟨S_, .f32⟩ : BufTy).Contents (Elt F) → (⟨S1x1024, .f32⟩ : BufTy).Contents (Elt F)),
    binary main_v27 main_v28 main_v29 ((fun a b => concatenate S10241x1024 0 [⟨S10240x1024, a⟩, ⟨S1x1024, b⟩] concatenates_S10240x1024_S1x1024_S10241x1024_d0) : (⟨S10240x1024, .f32⟩ : BufTy).Contents (Elt F) → (⟨S1x1024, .f32⟩ : BufTy).Contents (Elt F) → (⟨S10241x1024, .f32⟩ : BufTy).Contents (Elt F)),
    nullary main_c_7 (constantI S_ 32 0#32),
    unary main_c_7 main_v30 (broadcastInDim S8192 ![] bcast_S_S8192 : (⟨S_, .i32⟩ : BufTy).Contents (Elt F) → (⟨S8192, .i32⟩ : BufTy).Contents (Elt F)),
    binary main_v11 main_v30 main_v31 (cmpi .slt : (⟨S8192, .i32⟩ : BufTy).Contents (Elt F) → (⟨S8192, .i32⟩ : BufTy).Contents (Elt F) → (⟨S8192, .i1⟩ : BufTy).Contents (Elt F)),
    nullary main_c_8 (constantI S_ 32 10241#32),
    unary main_c_8 main_v32 (broadcastInDim S8192 ![] bcast_S_S8192 : (⟨S_, .i32⟩ : BufTy).Contents (Elt F) → (⟨S8192, .i32⟩ : BufTy).Contents (Elt F)),
    binary main_v11 main_v32 main_v33 (addi : (⟨S8192, .i32⟩ : BufTy).Contents (Elt F) → (⟨S8192, .i32⟩ : BufTy).Contents (Elt F) → (⟨S8192, .i32⟩ : BufTy).Contents (Elt F)),
    ternary main_v31 main_v33 main_v11 main_v34 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v34 main_v35 (broadcastInDim S8192x1 ![0] bcast_S8192_S8192x1_0 : (⟨S8192, .i32⟩ : BufTy).Contents (Elt F) → (⟨S8192x1, .i32⟩ : BufTy).Contents (Elt F)),
    binary main_v29 main_v35 main_v36 ((fun x i => Host.gather gather_S10241x1024_S8192x1_S8192x1024_1_0_n_n_0_1_11024 x i) : (⟨S10241x1024, .f32⟩ : BufTy).Contents (Elt F) → (⟨S8192x1, .i32⟩ : BufTy).Contents (Elt F) → (⟨S8192x1024, .f32⟩ : BufTy).Contents (Elt F)),
    unary main_v7 main_v37 (broadcastInDim S8192x1 ![0] bcast_S8192_S8192x1_0 : (⟨S8192, .i1⟩ : BufTy).Contents (Elt F) → (⟨S8192x1, .i1⟩ : BufTy).Contents (Elt F)),
    unary main_arg2 main_v38 (broadcastInDim S8192x1 ![0] bcast_S8192_S8192x1_0 : (⟨S8192, .f32⟩ : BufTy).Contents (Elt F) → (⟨S8192x1, .f32⟩ : BufTy).Contents (Elt F)),
    unary main_v38 main_v39 (broadcastInDim S8192x1024 ![0, 1] bcast_S8192x1_S8192x1024_0_1 : (⟨S8192x1, .f32⟩ : BufTy).Contents (Elt F) → (⟨S8192x1024, .f32⟩ : BufTy).Contents (Elt F)),
    binary main_v36 main_v39 main_v40 (mulf : (⟨S8192x1024, .f32⟩ : BufTy).Contents (Elt F) → (⟨S8192x1024, .f32⟩ : BufTy).Contents (Elt F) → (⟨S8192x1024, .f32⟩ : BufTy).Contents (Elt F)),
    TRef.unary (.of main_v37 : TRef sig ⟨S8192x1, .i1⟩) (.of main_call4_v0 : TRef sig ⟨S8192x1024, .i1⟩) (broadcastInDim S8192x1024 ![0, 1] bcast_S8192x1_S8192x1024_0_1),
    TRef.ternary (.of main_call4_v0 : TRef sig ⟨S8192x1024, .i1⟩) (.of main_v40 : TRef sig ⟨S8192x1024, .f32⟩) (.of main_arg0 : TRef sig ⟨S8192x1024, .f32⟩) (.of main_v41 : TRef sig ⟨S8192x1024, .f32⟩) select ]

/-- The whole line. -/
abbrev ops : List (HloOp τ sig (Elt F)) := route ++ (dispatch ++ (network ++ combine))

-- seventy-one binds re-associated: the rewriter recurses once per statement under the chain
set_option maxRecDepth 4096 in
/-- The main function is that line: the called functions' definitions unfolded at their calls, sequencing
    re-associated. -/
theorem main_eq (c : Dev nD) : main (F := F) c = seq ops := by
  simp only [main, fn_one_hot.body, fn_cumsum.body, fn_cumsum_0.body, fn_where.body, fn_silu.body, fn_where_1.body, bind_assoc,
    pure_bind]
  rfl

theorem scopedRefs_eq : (Finset.univ.filter fun b : Ref sig .tc => b.isScoped) = ∅ := by decide
theorem scopedSems_eq : (Finset.univ.filter fun sm : SemLoc sig => sm.isScoped .tc) = ∅ := by decide

theorem route_sub : (route : List (HloOp τ sig (Elt F))).Forall fun op => op.bufs ⊆ tcRefs τ sig :=
  ⟨unary_bufs_sub .., nullary_bufs_sub .., unary_bufs_sub .., unary_bufs_sub .., binary_bufs_sub .., unary_bufs_sub ..,
    nullary_bufs_sub .., unary_bufs_sub .., binary_bufs_sub ..,
    nullary_bufs_sub .., unary_bufs_sub .., binary_bufs_sub .., binary_bufs_sub .., nullary_bufs_sub .., binary_bufs_sub ..,
    nullary_bufs_sub .., unary_bufs_sub .., binary_bufs_sub .., nullary_bufs_sub .., unary_bufs_sub .., binary_bufs_sub ..,
    binary_bufs_sub .., nullary_bufs_sub .., unary_bufs_sub .., unary_bufs_sub .., ternary_bufs_sub ..⟩
theorem dispatch_sub : (dispatch : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., unary_bufs_sub ..,
    reshape_bufs_sub ..⟩
theorem network_sub : (network : List (HloOp τ sig (Elt F))).Forall fun op => op.bufs ⊆ tcRefs τ sig :=
  ⟨binary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., binary_bufs_sub ..,
    binary_bufs_sub ..⟩
theorem combine_sub : (combine : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., unary_bufs_sub .., binary_bufs_sub .., unary_bufs_sub ..,
    ternary_bufs_sub ..⟩

/-- A property of every operation of two lines holds of every operation of their concatenation. -/
theorem forall_append {α : Type} {p : α → Prop} {l₁ l₂ : List α} (h₁ : l₁.Forall p) (h₂ : l₂.Forall p) : (l₁ ++ l₂).Forall p :=
  List.forall_iff_forall_mem.2 fun a ha =>
    (List.mem_append.1 ha).elim (List.forall_iff_forall_mem.1 h₁ a) (List.forall_iff_forall_mem.1 h₂ a)

theorem ops_sub : (ops : List (HloOp τ sig (Elt F))).Forall fun op => op.bufs ⊆ tcRefs τ sig :=
  forall_append route_sub (forall_append dispatch_sub (forall_append network_sub combine_sub))

theorem route_fresh : (route : List (HloOp τ sig (Elt F))).Forall fun op => op.fresh = ∅ := by
  simp only [List.Forall]; repeat' constructor
theorem dispatch_fresh : (dispatch : List (HloOp τ sig (Elt F))).Forall fun op => op.fresh = ∅ := by
  simp only [List.Forall]; repeat' constructor
theorem network_fresh : (network : List (HloOp τ sig (Elt F))).Forall fun op => op.fresh = ∅ := by
  simp only [List.Forall]; repeat' constructor
theorem combine_fresh : (combine : List (HloOp τ sig (Elt F))).Forall fun op => op.fresh = ∅ := by
  simp only [List.Forall]; repeat' constructor
theorem ops_fresh : ∀ op ∈ (ops : List (HloOp τ sig (Elt F))), op.fresh = ∅ :=
  List.forall_iff_forall_mem.1 (forall_append route_fresh (forall_append dispatch_fresh (forall_append network_fresh combine_fresh)))

/-- What a buffer holds after the whole line is read stretch by stretch: after the combine step of what the network
    left of what the dispatch left of what the routing left. -/
theorem after_ops (V : Valuation τ sig (Elt F)) :
    after ops V = after combine (after network (after dispatch (after route V))) := by
  unfold ops
  rw [Cert.Lib.Stretch.after_append, Cert.Lib.Stretch.after_append, Cert.Lib.Stretch.after_append]

/-- On every device, from any memory with zero counters: every weakly fair execution of the main function terminates
    with every buffer at the fold of the line's results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- No operation of the line writes an argument's buffer: the proof that a given argument keeps its contents, the
    line's result buffers told apart from it one by one. -/
macro "line_keeps" : tactic => `(tactic| (
  refine after_of_forall_not_mem _ _ (List.forall_iff_forall_mem.mp ?_)
  simp only [ops, route, dispatch, network, combine, List.cons_append, List.nil_append, List.Forall, nullary_writes, unary_writes,
    binary_writes, ternary_writes, reshape_writes, Finset.mem_singleton]
  repeat' apply And.intro
  all_goals exact devRef_ne_of_ne (by decide)))

theorem keeps_arg0 (V : Valuation τ sig (Elt F)) : after ops V (Proc.devRef .tc main_arg0) = V (Proc.devRef .tc main_arg0) := by line_keeps
theorem keeps_arg1 (V : Valuation τ sig (Elt F)) : after ops V (Proc.devRef .tc main_arg1) = V (Proc.devRef .tc main_arg1) := by line_keeps
theorem keeps_arg2 (V : Valuation τ sig (Elt F)) : after ops V (Proc.devRef .tc main_arg2) = V (Proc.devRef .tc main_arg2) := by line_keeps
theorem keeps_arg3 (V : Valuation τ sig (Elt F)) : after ops V (Proc.devRef .tc main_arg3) = V (Proc.devRef .tc main_arg3) := by line_keeps
theorem keeps_arg4 (V : Valuation τ sig (Elt F)) : after ops V (Proc.devRef .tc main_arg4) = V (Proc.devRef .tc main_arg4) := by line_keeps
theorem keeps_arg5 (V : Valuation τ sig (Elt F)) : after ops V (Proc.devRef .tc main_arg5) = V (Proc.devRef .tc main_arg5) := by line_keeps

end Cert.ReferenceIdeal.Line

end
-- ==== Proof.LibBatchedDot.lean ====
/-
  Batched matrix products read at an index.

  Two families of dimension numbers over a leading batch axis `g`:
  * `l : [G, A, K]`, `r : [G, B, K]` contracted on their last axes — per batch entry the product `l · rᵀ`:
    the element `(g, a, b)` is the sum over `k` of `l (g, a, k) · r (g, b, k)`;
  * `l : [G, A, K]`, `r : [G, K, B]` contracted on the left's last and the right's middle axis — per batch entry the
    plain product `l · r`: the element `(g, a, b)` is the sum over `k` of `l (g, a, k) · r (g, k, b)`.
  Both on the matrix unit (into a zero accumulator) and on the host, at the ideal instance, where the product is the
  exact sum. General in `G`, `A`, `K`, `B` and in the operands' float formats.
-/
import Idealize.ShloMosaic.PureOps.Ideal
import Idealize.ShloMosaic.PureOps.Ideal.Laws
import Idealize.ShloMosaic.Lib.ValueIdx

noncomputable section

open scoped BigOperators

namespace Cert.Lib.BatchedDot

open Idealize.ShloMosaic Idealize.ShloMosaic.ValueIdx

/-! ## `l · rᵀ` per batch entry -/

/-- The dimension numbers of the batched `l · rᵀ`. -/
abbrev ntDims (G A K B : Nat)
    (wf : DotDims.WF ⟨3, ![G, A, K]⟩ ⟨3, ![G, B, K]⟩ ⟨3, ![G, A, B]⟩ [2] [2] [1] [1] [0] [0]) :
    DotDims ⟨3, ![G, A, K]⟩ ⟨3, ![G, B, K]⟩ ⟨3, ![G, A, B]⟩ where
  lhsContracting := [2]
  rhsContracting := [2]
  lhsNonContracting := [1]
  rhsNonContracting := [1]
  lhsBatch := [0]
  rhsBatch := [0]
  wf := wf

section
variable {G A K B : Nat} (wf : DotDims.WF ⟨3, ![G, A, K]⟩ ⟨3, ![G, B, K]⟩ ⟨3, ![G, A, B]⟩ [2] [2] [1] [1] [0] [0])

theorem nt_lhs0 (i : (⟨3, ![G, A, B]⟩ : Shape).Idx) (q : (ntDims G A K B wf).contr.Idx) :
    ((ntDims G A K B wf).lhsIdx i q 0).val = (i 0).val := by
  unfold DotDims.lhsIdx
  rw [dif_pos (show (0 : Fin 3) ∈ (ntDims G A K B wf).lhsBatch from List.mem_singleton.mpr rfl)]
  rfl

theorem nt_lhs1 (i : (⟨3, ![G, A, B]⟩ : Shape).Idx) (q : (ntDims G A K B wf).contr.Idx) :
    ((ntDims G A K B wf).lhsIdx i q 1).val = (i 1).val := by
  unfold DotDims.lhsIdx
  rw [dif_neg (show ¬(1 : Fin 3) ∈ (ntDims G A K B wf).lhsBatch from (by decide : ¬(1 : Fin 3) ∈ ([0] : List (Fin 3)))),
    dif_pos (show (1 : Fin 3) ∈ (ntDims G A K B wf).lhsNonContracting from List.mem_singleton.mpr rfl)]
  rfl

theorem nt_lhs2 (i : (⟨3, ![G, A, B]⟩ : Shape).Idx) (q : (ntDims G A K B wf).contr.Idx) :
    ((ntDims G A K B wf).lhsIdx i q 2).val = (q ⟨0, (Nat.one_pos : 0 < 1)⟩).val :=
  (ntDims G A K B wf).lhsIdx_val_of_single rfl i q

theorem nt_rhs0 (i : (⟨3, ![G, A, B]⟩ : Shape).Idx) (q : (ntDims G A K B wf).contr.Idx) :
    ((ntDims G A K B wf).rhsIdx i q 0).val = (i 0).val := by
  unfold DotDims.rhsIdx
  rw [dif_pos (show (0 : Fin 3) ∈ (ntDims G A K B wf).rhsBatch from List.mem_singleton.mpr rfl)]
  rfl

theorem nt_rhs1 (i : (⟨3, ![G, A, B]⟩ : Shape).Idx) (q : (ntDims G A K B wf).contr.Idx) :
    ((ntDims G A K B wf).rhsIdx i q 1).val = (i 2).val := by
  unfold DotDims.rhsIdx
  rw [dif_neg (show ¬(1 : Fin 3) ∈ (ntDims G A K B wf).rhsBatch from (by decide : ¬(1 : Fin 3) ∈ ([0] : List (Fin 3)))),
    dif_pos (show (1 : Fin 3) ∈ (ntDims G A K B wf).rhsNonContracting from List.mem_singleton.mpr rfl)]
  rfl

theorem nt_rhs2 (i : (⟨3, ![G, A, B]⟩ : Shape).Idx) (q : (ntDims G A K B wf).contr.Idx) :
    ((ntDims G A K B wf).rhsIdx i q 2).val = (q ⟨0, (Nat.one_pos : 0 < 1)⟩).val :=
  (ntDims G A K B wf).rhsIdx_val_of_single rfl i q

/-- The contraction's sum, re-indexed by its one coordinate. -/
theorem nt_sum {φ₁ φ₂ : FTy} (l : FVec Ideal ⟨3, ![G, A, K]⟩ φ₁) (r : FVec Ideal ⟨3, ![G, B, K]⟩ φ₂)
    (g : Fin G) (a : Fin A) (b : Fin B) :
    (∑ q : (ntDims G A K B wf).contr.Idx,
        l ((ntDims G A K B wf).lhsIdx (ix3 g a b) q) * r ((ntDims G A K B wf).rhsIdx (ix3 g a b) q))
      = ∑ k : Fin K, l (ix3 g a k) * r (ix3 g b k) := by
  rw [← Equiv.sum_comp (contrEquiv1 (ntDims G A K B wf) K rfl rfl).symm]
  refine Finset.sum_congr rfl fun k _ => ?_
  have hk := contrEquiv1_symm_val (ntDims G A K B wf) K rfl rfl k
  have el : (ntDims G A K B wf).lhsIdx (ix3 g a b) ((contrEquiv1 (ntDims G A K B wf) K rfl rfl).symm k) = ix3 g a k :=
    funext fun x => Fin.ext (by
      match x with
      | ⟨0, _⟩ => exact nt_lhs0 wf _ _
      | ⟨1, _⟩ => exact nt_lhs1 wf _ _
      | ⟨2, _⟩ => exact (nt_lhs2 wf _ _).trans hk)
  have er : (ntDims G A K B wf).rhsIdx (ix3 g a b) ((contrEquiv1 (ntDims G A K B wf) K rfl rfl).symm k) = ix3 g b k :=
    funext fun x => Fin.ext (by
      match x with
      | ⟨0, _⟩ => exact nt_rhs0 wf _ _
      | ⟨1, _⟩ => exact nt_rhs1 wf _ _
      | ⟨2, _⟩ => exact (nt_rhs2 wf _ _).trans hk)
  rw [el, er]

/-- The matrix unit's batched `l · rᵀ` into a zero accumulator, read at `(g, a, b)`. -/
theorem nt_matmul_apply {φ₁ φ₂ : FTy} (prec : Option ContractPrecision)
    (l : FVec Ideal ⟨3, ![G, A, K]⟩ φ₁) (r : FVec Ideal ⟨3, ![G, B, K]⟩ φ₂) (g : Fin G) (a : Fin A) (b : Fin B) :
    FloatOps.matmul (ntDims G A K B wf) prec l r (constant (F := Ideal) ⟨3, ![G, A, B]⟩ .f32 0x00000000#32) (ix3 g a b)
      = ∑ k : Fin K, l (ix3 g a k) * r (ix3 g b k) := by
  rw [Ideal.matmul_constant_zero_apply]
  exact nt_sum wf l r g a b

/-- The host's batched `l · rᵀ`, read at `(g, a, b)`. -/
theorem nt_dotGeneral_apply {φ₁ φ₂ : FTy} (prec : Option ContractPrecision) (sched : HostSchedule)
    (l : FVec Ideal ⟨3, ![G, A, K]⟩ φ₁) (r : FVec Ideal ⟨3, ![G, B, K]⟩ φ₂) (g : Fin G) (a : Fin A) (b : Fin B) :
    FloatOps.dotGeneral (ntDims G A K B wf) prec sched l r (ix3 g a b) = ∑ k : Fin K, l (ix3 g a k) * r (ix3 g b k) := by
  rw [Ideal.dotGeneral_apply]
  exact nt_sum wf l r g a b

end

/-! ## `l · r` per batch entry -/

/-- The dimension numbers of the batched `l · r`. -/
abbrev nnDims (G A K B : Nat)
    (wf : DotDims.WF ⟨3, ![G, A, K]⟩ ⟨3, ![G, K, B]⟩ ⟨3, ![G, A, B]⟩ [2] [1] [1] [2] [0] [0]) :
    DotDims ⟨3, ![G, A, K]⟩ ⟨3, ![G, K, B]⟩ ⟨3, ![G, A, B]⟩ where
  lhsContracting := [2]
  rhsContracting := [1]
  lhsNonContracting := [1]
  rhsNonContracting := [2]
  lhsBatch := [0]
  rhsBatch := [0]
  wf := wf

section
variable {G A K B : Nat} (wf : DotDims.WF ⟨3, ![G, A, K]⟩ ⟨3, ![G, K, B]⟩ ⟨3, ![G, A, B]⟩ [2] [1] [1] [2] [0] [0])

theorem nn_lhs0 (i : (⟨3, ![G, A, B]⟩ : Shape).Idx) (q : (nnDims G A K B wf).contr.Idx) :
    ((nnDims G A K B wf).lhsIdx i q 0).val = (i 0).val := by
  unfold DotDims.lhsIdx
  rw [dif_pos (show (0 : Fin 3) ∈ (nnDims G A K B wf).lhsBatch from List.mem_singleton.mpr rfl)]
  rfl

theorem nn_lhs1 (i : (⟨3, ![G, A, B]⟩ : Shape).Idx) (q : (nnDims G A K B wf).contr.Idx) :
    ((nnDims G A K B wf).lhsIdx i q 1).val = (i 1).val := by
  unfold DotDims.lhsIdx
  rw [dif_neg (show ¬(1 : Fin 3) ∈ (nnDims G A K B wf).lhsBatch from (by decide : ¬(1 : Fin 3) ∈ ([0] : List (Fin 3)))),
    dif_pos (show (1 : Fin 3) ∈ (nnDims G A K B wf).lhsNonContracting from List.mem_singleton.mpr rfl)]
  rfl

theorem nn_lhs2 (i : (⟨3, ![G, A, B]⟩ : Shape).Idx) (q : (nnDims G A K B wf).contr.Idx) :
    ((nnDims G A K B wf).lhsIdx i q 2).val = (q ⟨0, (Nat.one_pos : 0 < 1)⟩).val :=
  (nnDims G A K B wf).lhsIdx_val_of_single rfl i q

theorem nn_rhs0 (i : (⟨3, ![G, A, B]⟩ : Shape).Idx) (q : (nnDims G A K B wf).contr.Idx) :
    ((nnDims G A K B wf).rhsIdx i q 0).val = (i 0).val := by
  unfold DotDims.rhsIdx
  rw [dif_pos (show (0 : Fin 3) ∈ (nnDims G A K B wf).rhsBatch from List.mem_singleton.mpr rfl)]
  rfl

theorem nn_rhs1 (i : (⟨3, ![G, A, B]⟩ : Shape).Idx) (q : (nnDims G A K B wf).contr.Idx) :
    ((nnDims G A K B wf).rhsIdx i q 1).val = (q ⟨0, (Nat.one_pos : 0 < 1)⟩).val :=
  (nnDims G A K B wf).rhsIdx_val_of_single rfl i q

theorem nn_rhs2 (i : (⟨3, ![G, A, B]⟩ : Shape).Idx) (q : (nnDims G A K B wf).contr.Idx) :
    ((nnDims G A K B wf).rhsIdx i q 2).val = (i 2).val := by
  unfold DotDims.rhsIdx
  rw [dif_neg (show ¬(2 : Fin 3) ∈ (nnDims G A K B wf).rhsBatch from (by decide : ¬(2 : Fin 3) ∈ ([0] : List (Fin 3)))),
    dif_pos (show (2 : Fin 3) ∈ (nnDims G A K B wf).rhsNonContracting from List.mem_singleton.mpr rfl)]
  rfl

/-- The contraction's sum, re-indexed by its one coordinate. -/
theorem nn_sum {φ₁ φ₂ : FTy} (l : FVec Ideal ⟨3, ![G, A, K]⟩ φ₁) (r : FVec Ideal ⟨3, ![G, K, B]⟩ φ₂)
    (g : Fin G) (a : Fin A) (b : Fin B) :
    (∑ q : (nnDims G A K B wf).contr.Idx,
        l ((nnDims G A K B wf).lhsIdx (ix3 g a b) q) * r ((nnDims G A K B wf).rhsIdx (ix3 g a b) q))
      = ∑ k : Fin K, l (ix3 g a k) * r (ix3 g k b) := by
  rw [← Equiv.sum_comp (contrEquiv1 (nnDims G A K B wf) K rfl rfl).symm]
  refine Finset.sum_congr rfl fun k _ => ?_
  have hk := contrEquiv1_symm_val (nnDims G A K B wf) K rfl rfl k
  have el : (nnDims G A K B wf).lhsIdx (ix3 g a b) ((contrEquiv1 (nnDims G A K B wf) K rfl rfl).symm k) = ix3 g a k :=
    funext fun x => Fin.ext (by
      match x with
      | ⟨0, _⟩ => exact nn_lhs0 wf _ _
      | ⟨1, _⟩ => exact nn_lhs1 wf _ _
      | ⟨2, _⟩ => exact (nn_lhs2 wf _ _).trans hk)
  have er : (nnDims G A K B wf).rhsIdx (ix3 g a b) ((contrEquiv1 (nnDims G A K B wf) K rfl rfl).symm k) = ix3 g k b :=
    funext fun x => Fin.ext (by
      match x with
      | ⟨0, _⟩ => exact nn_rhs0 wf _ _
      | ⟨1, _⟩ => exact (nn_rhs1 wf _ _).trans hk
      | ⟨2, _⟩ => exact nn_rhs2 wf _ _)
  rw [el, er]

/-- The matrix unit's batched `l · r` into a zero accumulator, read at `(g, a, b)`. -/
theorem nn_matmul_apply {φ₁ φ₂ : FTy} (prec : Option ContractPrecision)
    (l : FVec Ideal ⟨3, ![G, A, K]⟩ φ₁) (r : FVec Ideal ⟨3, ![G, K, B]⟩ φ₂) (g : Fin G) (a : Fin A) (b : Fin B) :
    FloatOps.matmul (nnDims G A K B wf) prec l r (constant (F := Ideal) ⟨3, ![G, A, B]⟩ .f32 0x00000000#32) (ix3 g a b)
      = ∑ k : Fin K, l (ix3 g a k) * r (ix3 g k b) := by
  rw [Ideal.matmul_constant_zero_apply]
  exact nn_sum wf l r g a b

/-- The host's batched `l · r`, read at `(g, a, b)`. -/
theorem nn_dotGeneral_apply {φ₁ φ₂ : FTy} (prec : Option ContractPrecision) (sched : HostSchedule)
    (l : FVec Ideal ⟨3, ![G, A, K]⟩ φ₁) (r : FVec Ideal ⟨3, ![G, K, B]⟩ φ₂) (g : Fin G) (a : Fin A) (b : Fin B) :
    FloatOps.dotGeneral (nnDims G A K B wf) prec sched l r (ix3 g a b) = ∑ k : Fin K, l (ix3 g a k) * r (ix3 g k b) := by
  rw [Ideal.dotGeneral_apply]
  exact nn_sum wf l r g a b

end

end Cert.Lib.BatchedDot

end
-- ==== Proof.LibExtReal.lean ====
/-
  Small facts about rows of real numbers read in the extended reals, and about two f32 patterns: what a proof
  needs when a law holds for finite inputs only and its corner is a row of zeros.
-/
import Idealize.ShloMosaic.PureOps.Ideal

noncomputable section

namespace LibExtReal

open Idealize.ShloMosaic

/-- A finite sum of real numbers read in the extended reals is the sum of the readings. -/
theorem coe_sum {ι : Type} (s : Finset ι) (f : ι → ℝ) :
    (∑ k ∈ s, ((f k : ℝ) : EReal)) = ((∑ k ∈ s, f k : ℝ) : EReal) := by
  classical
  refine Finset.induction_on s (by simp) ?_
  intro a s ha ih
  rw [Finset.sum_insert ha, Finset.sum_insert ha, ih, EReal.coe_add]

/-- A sum of squares is non-negative. -/
theorem sumsq_nonneg {n : ℕ} (a : Fin n → ℝ) : 0 ≤ ∑ k, a k * a k :=
  Finset.sum_nonneg fun k _ => mul_self_nonneg (a k)

/-- A row whose squares sum to zero is the zero row. -/
theorem row_zero_of_sumsq_zero {n : ℕ} (a : Fin n → ℝ) (h : ∑ k, a k * a k = 0) (k : Fin n) : a k = 0 :=
  mul_self_eq_zero.mp
    ((Finset.sum_eq_zero_iff_of_nonneg fun k _ => mul_self_nonneg (a k)).mp h k (Finset.mem_univ k))

/-- So its inner product with any row is zero, on either side. -/
theorem inner_zero_left {n : ℕ} (a b : Fin n → ℝ) (h : ∑ k, a k * a k = 0) : ∑ k, a k * b k = 0 :=
  Finset.sum_eq_zero fun k _ => by rw [row_zero_of_sumsq_zero a h k, zero_mul]

theorem inner_zero_right {n : ℕ} (a b : Fin n → ℝ) (h : ∑ k, b k * b k = 0) : ∑ k, a k * b k = 0 :=
  Finset.sum_eq_zero fun k _ => by rw [row_zero_of_sumsq_zero b h k, mul_zero]

/-- An extended real whose absolute value max(x, −x) is below +∞ is a real number. -/
theorem real_of_abs_lt_top (x : EReal) (h : max x (-x) < ⊤) : ∃ r : ℝ, x = r := by
  induction x using EReal.rec with
  | bot => simp at h
  | coe r => exact ⟨r, rfl⟩
  | top => simp at h

/-- The f32 pattern with all exponent bits set and no fraction is +∞. -/
theorem inf_f32 : Ideal.ofBits .f32 0x7F800000#32 = ⊤ := by simp [Ideal.ofBits, Ideal.ieee]

/-- The f32 pattern of 1.0 is the extended real 1. -/
theorem one_f32 : Ideal.ofBits .f32 0x3F800000#32 = 1 := by
  simp [Ideal.ofBits, Ideal.ieee, -EReal.coe_mul]; norm_num

end LibExtReal

end
-- ==== Proof.HostNet.lean ====
/-
  The experts' network as the host writes it, against the specification.

  The host forms the two up-projections as batched products over the expert axis, multiplies the first by
  `1 / (1 + e^(-g))` spelt out in negate, exponential, add and divide, multiplies by the second, and forms the
  down-projection as a third batched product. At the ideal instance a batched product is, element by element, the exact
  sum over the contracted coordinate, the host's quotient is the extended reals' `div`, the f32 word of 1.0 is 1, and
  `div 1 (1 + exp (-g))` is by definition the logistic function: the host's network is the specification's.
-/
import proofs.«141049_j63694364999794_2_alg».proof.Proof.Spec
import proofs.«141049_j63694364999794_2_alg».proof.Proof.Routing
import proofs.«141049_j63694364999794_2_alg».proof.Proof.LibBatchedDot
import proofs.«141049_j63694364999794_2_alg».proof.Proof.LibExtReal

noncomputable section

open scoped BigOperators

namespace Cert.Moe

open Idealize.ShloMosaic Idealize.ShloMosaic.ValueIdx Cert.Lib.BatchedDot

/-- Expert by slot by hidden unit. -/
abbrev SH : Shape := ⟨3, ![8, 1280, 2816]⟩

theorem up_wf : DotDims.WF SX SW SH [2] [1] [1] [2] [0] [0] := by decide
theorem down_wf : DotDims.WF SH SD SX [2] [1] [1] [2] [0] [0] := by decide
theorem bc_S0_SH : S0.BroadcastsInDim SH (![] : Fin 0 → Fin SH.rank) := by decide

variable {F : FTy → Type} [FloatOps F]

/-- The host's gate factor: `g · (1 / (1 + e^(-g)))`, the constant 1 splat from its f32 word. -/
def hostSilu (g : FVec F SH .f32) : FVec F SH .f32 :=
  mulf g
    (Host.divf (broadcastInDim SH ![] bc_S0_SH (constant S0 .f32 0x3F800000#32))
      (addf (broadcastInDim SH ![] bc_S0_SH (constant S0 .f32 0x3F800000#32)) (Host.exp (Host.negf g))))

/-- The host's network. -/
def hostNet (xe : FVec F SX .f32) (wg wu : FVec F SW .f32) (wd : FVec F SD .f32) : FVec F SX .f32 :=
  Host.dotGeneral (nnDims 8 1280 2816 1024 down_wf) none
    (mulf (hostSilu (Host.dotGeneral (nnDims 8 1280 1024 2816 up_wf) none xe wg))
      (Host.dotGeneral (nnDims 8 1280 1024 2816 up_wf) none xe wu))
    wd

/-- The host's gate factor at an element: `g · σ(g)`. -/
theorem hostSilu_apply (g : FVec Ideal SH .f32) (i : SH.Idx) : hostSilu g i = g i * Ideal.logistic (g i) := by
  show g i * Ideal.div (Ideal.ofBits .f32 0x3F800000#32) (Ideal.ofBits .f32 0x3F800000#32 + Ideal.exp (-(g i))) = _
  rw [LibExtReal.one_f32]
  rfl

/-- The host's network is the specification's, element by element. -/
theorem hostNet_eq (xe : FVec Ideal SX .f32) (wg wu : FVec Ideal SW .f32) (wd : FVec Ideal SD .f32) :
    hostNet xe wg wu wd = ffn xe wg wu wd := by
  funext i
  obtain ⟨e, p, j, rfl⟩ : ∃ (e : Fin 8) (p : Fin 1280) (j : Fin 1024), i = ix3 e p j := ⟨i 0, i 1, i 2, eq_ix3 i⟩
  rw [ffn_ix3]
  unfold hostNet ffnAt hidden gate
  refine (nn_dotGeneral_apply down_wf none .single _ wd e p j).trans ?_
  refine Finset.sum_congr rfl fun h _ => ?_
  refine congrArg₂ (· * ·) ?_ rfl
  have hg := nn_dotGeneral_apply up_wf none .single xe wg e p h
  have hu := nn_dotGeneral_apply up_wf none .single xe wu e p h
  refine (congrArg₂ (· * ·) (hostSilu_apply _ (ix3 e p h)) rfl).trans ?_
  exact congrArg₂ (· * ·) (congrArg₂ (· * ·) hg (congrArg Ideal.logistic hg)) hu

end Cert.Moe

end
-- ==== Proof.RefRead.lean ====
/-
  What the reference's line leaves in its result, read stretch by stretch against the shared host functions.

  After the routing stretch the slot buffer holds `slot` of the expert indices and the kept buffer `kept` of them; after
  the dispatch stretch the per-expert buffer holds `dispatched` of a zero buffer, the tokens and the slots; after the
  network stretch the output buffer holds the host's network of the per-expert buffer and the three weight arrays; after
  the combine stretch the result holds `combined` of that output, the tokens, the slots, the kept bits and the scores. A
  stretch leaves every buffer it does not write as it found it. Each fact is the fold of the stretch's operations
  unrolled at one buffer.
-/
import proofs.«141049_j63694364999794_2_alg».proof.Proof.RefLine
import proofs.«141049_j63694364999794_2_alg».proof.Proof.Routing
import proofs.«141049_j63694364999794_2_alg».proof.Proof.HostNet

noncomputable section

namespace Cert.ReferenceIdeal.Read

open Cert.ReferenceIdeal Cert.ReferenceIdeal.Line Idealize.ShloMosaic Idealize.ShloMosaic.TcCoe Idealize.ShloMosaic.StableHlo
open Cert.Moe

variable {F : FTy → Type} [FloatOps F]

/-! ## Routing -/

attribute [local irreducible] Host.reduce Host.reduceWindow in
theorem route_slot (V : Valuation τ sig (Elt F)) : after route V (Proc.devRef .tc main_v11) = slot (V (Proc.devRef .tc main_arg1)) := by
  after_results_simp
  rfl

attribute [local irreducible] Host.reduce Host.reduceWindow in
theorem route_kept (V : Valuation τ sig (Elt F)) : after route V (Proc.devRef .tc main_v7) = kept (V (Proc.devRef .tc main_arg1)) := by
  after_results
  rfl

theorem route_arg0 (V : Valuation τ sig (Elt F)) : after route V (Proc.devRef .tc main_arg0) = V (Proc.devRef .tc main_arg0) := by after_results
theorem route_arg2 (V : Valuation τ sig (Elt F)) : after route V (Proc.devRef .tc main_arg2) = V (Proc.devRef .tc main_arg2) := by after_results
theorem route_arg3 (V : Valuation τ sig (Elt F)) : after route V (Proc.devRef .tc main_arg3) = V (Proc.devRef .tc main_arg3) := by after_results
theorem route_arg4 (V : Valuation τ sig (Elt F)) : after route V (Proc.devRef .tc main_arg4) = V (Proc.devRef .tc main_arg4) := by after_results
theorem route_arg5 (V : Valuation τ sig (Elt F)) : after route V (Proc.devRef .tc main_arg5) = V (Proc.devRef .tc main_arg5) := by after_results

/-! ## Dispatch -/

attribute [local irreducible] Host.scatter in
theorem dispatch_xe (V : Valuation τ sig (Elt F)) :
    after dispatch V (Proc.devRef .tc main_v21)
      = dispatched (broadcastInDim S10241x1024 ![] Facts₀.bcast_S_S10241x1024 (constant (F := F) S_ .f32 0x00000000#32))
          (V (Proc.devRef .tc main_arg0)) (V (Proc.devRef .tc main_v11)) := by
  after_results
  rfl

theorem dispatch_v11 (V : Valuation τ sig (Elt F)) : after dispatch V (Proc.devRef .tc main_v11) = V (Proc.devRef .tc main_v11) := by after_results
theorem dispatch_v7 (V : Valuation τ sig (Elt F)) : after dispatch V (Proc.devRef .tc main_v7) = V (Proc.devRef .tc main_v7) := by after_results
theorem dispatch_arg0 (V : Valuation τ sig (Elt F)) : after dispatch V (Proc.devRef .tc main_arg0) = V (Proc.devRef .tc main_arg0) := by after_results
theorem dispatch_arg2 (V : Valuation τ sig (Elt F)) : after dispatch V (Proc.devRef .tc main_arg2) = V (Proc.devRef .tc main_arg2) := by after_results
theorem dispatch_arg3 (V : Valuation τ sig (Elt F)) : after dispatch V (Proc.devRef .tc main_arg3) = V (Proc.devRef .tc main_arg3) := by after_results
theorem dispatch_arg4 (V : Valuation τ sig (Elt F)) : after dispatch V (Proc.devRef .tc main_arg4) = V (Proc.devRef .tc main_arg4) := by after_results
theorem dispatch_arg5 (V : Valuation τ sig (Elt F)) : after dispatch V (Proc.devRef .tc main_arg5) = V (Proc.devRef .tc main_arg5) := by after_results

/-! ## Network -/

theorem network_out (V : Valuation τ sig (Elt F)) :
    after network V (Proc.devRef .tc main_v26)
      = hostNet (V (Proc.devRef .tc main_v21)) (V (Proc.devRef .tc main_arg3)) (V (Proc.devRef .tc main_arg4)) (V (Proc.devRef .tc main_arg5)) := by
  after_results
  rfl

theorem network_v11 (V : Valuation τ sig (Elt F)) : after network V (Proc.devRef .tc main_v11) = V (Proc.devRef .tc main_v11) := by after_results
theorem network_v7 (V : Valuation τ sig (Elt F)) : after network V (Proc.devRef .tc main_v7) = V (Proc.devRef .tc main_v7) := by after_results
theorem network_arg0 (V : Valuation τ sig (Elt F)) : after network V (Proc.devRef .tc main_arg0) = V (Proc.devRef .tc main_arg0) := by after_results
theorem network_arg2 (V : Valuation τ sig (Elt F)) : after network V (Proc.devRef .tc main_arg2) = V (Proc.devRef .tc main_arg2) := by after_results

/-! ## Combine -/

attribute [local irreducible] Host.gather concatenate in
theorem combine_out (V : Valuation τ sig (Elt F)) :
    after combine V (Proc.devRef .tc main_v41)
      = combined (V (Proc.devRef .tc main_v26)) (V (Proc.devRef .tc main_arg0)) (V (Proc.devRef .tc main_v11)) (V (Proc.devRef .tc main_v7))
          (V (Proc.devRef .tc main_arg2)) := by
  after_results_simp
  rfl

/-! ## The whole line at the result -/

/-- The result of the whole line, as one function of the launch contents of the six arguments. -/
theorem result (V : Valuation τ sig (Elt F)) :
    after combine (after network (after dispatch (after route V))) (Proc.devRef .tc main_v41)
      = combined
          (hostNet
            (dispatched (broadcastInDim S10241x1024 ![] Facts₀.bcast_S_S10241x1024 (constant (F := F) S_ .f32 0x00000000#32))
              (V (Proc.devRef .tc main_arg0)) (slot (V (Proc.devRef .tc main_arg1))))
            (V (Proc.devRef .tc main_arg3)) (V (Proc.devRef .tc main_arg4)) (V (Proc.devRef .tc main_arg5)))
          (V (Proc.devRef .tc main_arg0)) (slot (V (Proc.devRef .tc main_arg1))) (kept (V (Proc.devRef .tc main_arg1)))
          (V (Proc.devRef .tc main_arg2)) := by
  rw [combine_out, network_out, network_v11, network_v7, network_arg0, network_arg2, dispatch_xe, dispatch_v11, dispatch_v7,
    dispatch_arg0, dispatch_arg2, dispatch_arg3, dispatch_arg4, dispatch_arg5, route_slot, route_kept, route_arg0, route_arg2,
    route_arg3, route_arg4, route_arg5]

end Cert.ReferenceIdeal.Read

end
-- ==== Proof.RefValue.lean ====
/-
  The reference's result is the layer of its arguments.
-/
import proofs.«141049_j63694364999794_2_alg».proof.Proof.RefRead
import proofs.«141049_j63694364999794_2_alg».proof.Proof.Layer
import Idealize.ShloMosaic.PureOps.Ideal.Laws

noncomputable section

namespace Cert.ReferenceIdeal.Whole

open Cert.ReferenceIdeal Cert.ReferenceIdeal.Line Idealize.ShloMosaic Idealize.ShloMosaic.TcCoe Idealize.ShloMosaic.StableHlo
open Cert.Moe

/-- After the whole line the result buffer holds the layer of the arguments' launch contents: the stretches read one
    after the other, the host's network the specification's, the f32 zero word the extended real 0. -/
theorem value (V : Valuation τ sig (Elt Ideal)) :
    after ops V (Proc.devRef .tc main_v41)
      = moe (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops, Read.result, hostNet_eq]
  have hz : broadcastInDim S10241x1024 ![] Facts₀.bcast_S_S10241x1024 (constant (F := Ideal) S_ .f32 0x00000000#32)
      = fun _ => (0 : EReal) := funext fun _ => Ideal.ofBits_zero_f32
  rw [hz]
  rfl

end Cert.ReferenceIdeal.Whole

end
-- ==== Proof.lean ====
/-
  A top-1 mixture-of-experts layer with a capacity: the kernel program against its reference, on the extended reals.

  Both programs route 8192 tokens to 8 experts with 1280 slots each (a token's position in its expert's queue from the
  running count of a one-hot encoding; a token past the capacity is dropped to an overflow slot), dispatch the kept
  tokens' rows into a per-expert buffer, run every expert's gated feed-forward network
      out(e, p, ·) = Σ_h  g·σ(g)·u · wd(e, h, ·),   g = xe(e, p, ·)·wg(e, ·, h),   u = xe(e, p, ·)·wu(e, ·, h),
  and combine: a kept token receives its expert's row scaled by its score, a dropped token is passed through.

  The routing, dispatch and combine lines are the same host operations in both programs and are read against one set of
  functions (Proof/Routing.lean); the kernel program only narrows the tokens and weights to bf16 first, which is the
  identity at the ideal instance. The network is where the programs differ: the reference forms three batched products
  over the expert axis and spells the sigmoid out in negate, exponential, add and divide; the kernel runs one grid point
  per expert and tile of 128 slots, forms the products on the matrix unit into zero accumulators and uses the logistic
  operation. At the ideal instance every product is the exact sum over the contracted coordinate and the logistic
  function is by definition `1 / (1 + e^(-g))`, so both are the specification's network (Proof/Spec.lean) — the same sums
  of the same products, with no finiteness of the inputs used anywhere. The ten tiles of an expert cover its 1280 slots,
  so the launch's output array is the network of the staged arrays (Proof/KernelArray.lean).

  The kernel programs' frames are the generated ones; the reference's frame is its run as one straight line of 71 host
  operations (Proof/RefLine.lean) with the result dropped. The idealization rewrote no operation, so `preserves` is `True`.
-/
import proofs.«141049_j63694364999794_2_alg».proof.Defs
import proofs.«141049_j63694364999794_2_alg».proof.Proof.Gen.Kernel
import proofs.«141049_j63694364999794_2_alg».proof.Proof.Gen.Kernel.Skeleton
import proofs.«141049_j63694364999794_2_alg».proof.Proof.Gen.Kernel.Launch
import proofs.«141049_j63694364999794_2_alg».proof.Proof.Gen.Kernel.Points
import proofs.«141049_j63694364999794_2_alg».proof.Proof.Gen.Kernel.Frame
import proofs.«141049_j63694364999794_2_alg».proof.Proof.Gen.KernelIdeal
import proofs.«141049_j63694364999794_2_alg».proof.Proof.Gen.KernelIdeal.Skeleton
import proofs.«141049_j63694364999794_2_alg».proof.Proof.Gen.KernelIdeal.Launch
import proofs.«141049_j63694364999794_2_alg».proof.Proof.Gen.KernelIdeal.Points
import proofs.«141049_j63694364999794_2_alg».proof.Proof.Gen.KernelIdeal.Frame
import proofs.«141049_j63694364999794_2_alg».proof.Proof.Gen.ReferenceIdeal
import proofs.«141049_j63694364999794_2_alg».proof.Proof.Gen.Pre_finite_inputs
import proofs.«141049_j63694364999794_2_alg».proof.Proof.KernValue
import proofs.«141049_j63694364999794_2_alg».proof.Proof.RefValue
import Idealize.ShloMosaic.Adequacy
import Idealize.ShloMosaic.Init

noncomputable section

namespace Cert.Proof

open Idealize.ShloMosaic Idealize.ShloMosaic.TcCoe Idealize.SL.Sem

namespace Layer

/-- The kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its run as one line of host operations, none of which writes an
    argument's buffer. -/
theorem frame_ri : Cert.frame_ReferenceIdeal := fun m ρ _ =>
  (θ_run Cert.ReferenceIdeal.defs _ _).mono
    (fun _ h c => ⟨(h c _).trans (Cert.ReferenceIdeal.Line.keeps_arg0 _), (h c _).trans (Cert.ReferenceIdeal.Line.keeps_arg1 _),
      (h c _).trans (Cert.ReferenceIdeal.Line.keeps_arg2 _), (h c _).trans (Cert.ReferenceIdeal.Line.keeps_arg3 _),
      (h c _).trans (Cert.ReferenceIdeal.Line.keeps_arg4 _), (h c _).trans (Cert.ReferenceIdeal.Line.keeps_arg5 _)⟩)
    (Cert.ReferenceIdeal.Line.run (F := Ideal) m ρ)

/-- The idealization rewrote no operation. -/
theorem preserves : Cert.preserves_Kernel_KernelIdeal := trivial

/-- From memories that agree on the six arguments both programs end with the result at the layer of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono
    (fun _ h c => ⟨(h c _).trans ((Cert.ReferenceIdeal.Whole.value _).trans ?_),
      (h c _).trans (Cert.ReferenceIdeal.Line.keeps_arg0 _), (h c _).trans (Cert.ReferenceIdeal.Line.keeps_arg1 _),
      (h c _).trans (Cert.ReferenceIdeal.Line.keeps_arg2 _), (h c _).trans (Cert.ReferenceIdeal.Line.keeps_arg3 _),
      (h c _).trans (Cert.ReferenceIdeal.Line.keeps_arg4 _), (h c _).trans (Cert.ReferenceIdeal.Line.keeps_arg5 _)⟩)
    (Cert.ReferenceIdeal.Line.run (F := Ideal) m' ρ')
  have ha := hagree c
  show Cert.Moe.moe (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
  rw [ha.1, ha.2.1, ha.2.2.1, ha.2.2.2.1, ha.2.2.2.2.1, ha.2.2.2.2.2]

end Layer

theorem claim : Cert.Claim :=
  ⟨Cert.Kernel.Gen.facts, Cert.KernelIdeal.Gen.facts, Cert.ReferenceIdeal.Gen.facts, Cert.Pre_finite_inputs.Gen.facts,
    Layer.frame_k, Layer.frame_ki, Layer.frame_ri, Layer.preserves, Layer.algebraic⟩

end Cert.Proof

end
